-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x64x16 : Shape := ⟨3, ![512, 64, 16]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x64x16 : S_.BroadcastsInDim S512x64x16 (![] : Fin 0 → Fin S512x64x16.rank)
  reducesTo_S512x64x16_S_d0_1_2 : S512x64x16.ReducesTo [0, 1, 2] S_

variable [Facts]

def fn {F : FTy → Type} [FloatOps F] (main_arg0 : FVec F S512x512 .f32) (main_arg1 : FVec F S512x64x16 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x64x16 .f32 := Host.absf main_arg1
  let main_cst_0 : FVec F S_ .f32 := constant S_ .f32 0x7F800000#32
  let main_v5 : FVec F S512x64x16 .f32 := broadcastInDim S512x64x16 ![] bcast_S_S512x64x16 main_cst_0
  let main_v6 : IVec S512x64x16 1 := cmpf .olt main_v4 main_v5
  let main_c_1 : IVec S_ 1 := constantI S_ 1 1#1
  let main_v7 : IVec S_ 1 := (fun x v => Host.reduce IntOp.andi x v reducesTo_S512x64x16_S_d0_1_2 h_S_) main_v6 main_c_1
  let main_v8 : IVec S_ 1 := andi main_v3 main_v7
  main_v8
-- ==== Kernel.lean ====
abbrev S512x512 : Shape := ⟨2, ![512, 512]⟩
abbrev S512x64x16 : Shape := ⟨3, ![512, 64, 16]⟩
abbrev S512x1024 : Shape := ⟨2, ![512, 1024]⟩
abbrev S128x512 : Shape := ⟨2, ![128, 512]⟩
abbrev S128x1024 : Shape := ⟨2, ![128, 1024]⟩
abbrev S512x64 : Shape := ⟨2, ![512, 64]⟩
abbrev S128x64x16 : Shape := ⟨3, ![128, 64, 16]⟩
abbrev S128x64 : Shape := ⟨2, ![128, 64]⟩
abbrev S128x128x64 : Shape := ⟨3, ![128, 128, 64]⟩
abbrev S128x64x1 : Shape := ⟨3, ![128, 64, 1]⟩
abbrev S128x1x64 : Shape := ⟨3, ![128, 1, 64]⟩
abbrev S1x128x64 : Shape := ⟨3, ![1, 128, 64]⟩
abbrev S512x576 : Shape := ⟨2, ![512, 576]⟩

abbrev nBuf : Space → Nat
  | .hbm => 7
  | .vmem => 12
  | .smem => 0
  | _ => 0

abbrev bufTy : (tb : Table) → Fin (tcTables nBuf tb) → BufTy
  | .hbm, ⟨0, _⟩ => ⟨S512x512, .f32⟩
  | .hbm, ⟨1, _⟩ => ⟨S512x64x16, .f32⟩
  | .hbm, ⟨2, _⟩ => ⟨S512x1024, .f32⟩
  | .hbm, ⟨3, _⟩ => ⟨S512x1024, .f32⟩
  | .hbm, ⟨4, _⟩ => ⟨S512x64x16, .f32⟩
  | .hbm, ⟨5, _⟩ => ⟨S512x64, .f32⟩
  | .hbm, ⟨6, _⟩ => ⟨S512x576, .f32⟩
  | .local _ .vmem, ⟨0, _⟩ => ⟨S128x512, .f32⟩
  | .local _ .vmem, ⟨1, _⟩ => ⟨S128x512, .f32⟩
  | .local _ .vmem, ⟨2, _⟩ => ⟨S512x1024, .f32⟩
  | .local _ .vmem, ⟨3, _⟩ => ⟨S128x1024, .f32⟩
  | .local _ .vmem, ⟨4, _⟩ => ⟨S128x1024, .f32⟩
  | .local _ .vmem, ⟨5, _⟩ => ⟨S128x64x16, .f32⟩
  | .local _ .vmem, ⟨6, _⟩ => ⟨S128x64x16, .f32⟩
  | .local _ .vmem, ⟨7, _⟩ => ⟨S128x64x16, .f32⟩
  | .local _ .vmem, ⟨8, _⟩ => ⟨S128x64x16, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v193 : BitVec 1 := Scalar.cmpi .eq arg1 c3_i32
  let v194 : BitVec 32 := Scalar.extui v193
  let c0_i32_12 : BitVec 32 := 0#32
  let v195 : BitVec 1 := Scalar.cmpi .ne v194 c0_i32_12
  v195

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x64x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x64x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S512x64x16_S512x1024 : S512x64x16.ShapeCasts S512x1024
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S128x1024_S128x1024_0_0 : ∀ a, (![0, 0] : Fin 2 → Nat) a + S128x1024.size a ≤ S128x1024.size a
  h_S128x1024 : 0 < S128x1024.numel
  shapeCasts_S512x1024_S512x64x16 : S512x1024.ShapeCasts S512x64x16
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x64x16_S128x64x16_0_0_0 : ∀ a, (![0, 0, 0] : Fin 3 → Nat) a + S128x64x16.size a ≤ S128x64x16.size a
  h_S128x64x16 : 0 < S128x64x16.numel
  shapeCasts_S128x64x16_S128x64x16 : S128x64x16.ShapeCasts S128x64x16
  slices_S128x64x16_o0_0_0_S128x64x1 : S128x64x16.Slices ![0, 0, 0] S128x64x1
  shapeCasts_S128x64x1_S128x64 : S128x64x1.ShapeCasts S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  slices_S128x64x16_o0_0_1_S128x64x1 : S128x64x16.Slices ![0, 0, 1] S128x64x1
  slices_S128x64x16_o0_0_2_S128x64x1 : S128x64x16.Slices ![0, 0, 2] S128x64x1
  slices_S128x64x16_o0_0_3_S128x64x1 : S128x64x16.Slices ![0, 0, 3] S128x64x1
  slices_S128x64x16_o0_0_4_S128x64x1 : S128x64x16.Slices ![0, 0, 4] S128x64x1
  slices_S128x64x16_o0_0_5_S128x64x1 : S128x64x16.Slices ![0, 0, 5] S128x64x1
  slices_S128x64x16_o0_0_6_S128x64x1 : S128x64x16.Slices ![0, 0, 6] S128x64x1
  slices_S128x64x16_o0_0_7_S128x64x1 : S128x64x16.Slices ![0, 0, 7] S128x64x1
  slices_S128x64x16_o0_0_8_S128x64x1 : S128x64x16.Slices ![0, 0, 8] S128x64x1
  slices_S128x64x16_o0_0_9_S128x64x1 : S128x64x16.Slices ![0, 0, 9] S128x64x1
  slices_S128x64x16_o0_0_10_S128x64x1 : S128x64x16.Slices ![0, 0, 10] S128x64x1
  slices_S128x64x16_o0_0_11_S128x64x1 : S128x64x16.Slices ![0, 0, 11] S128x64x1
  slices_S128x64x16_o0_0_12_S128x64x1 : S128x64x16.Slices ![0, 0, 12] S128x64x1
  slices_S128x64x16_o0_0_13_S128x64x1 : S128x64x16.Slices ![0, 0, 13] S128x64x1
  slices_S128x64x16_o0_0_14_S128x64x1 : S128x64x16.Slices ![0, 0, 14] S128x64x1
  slices_S128x64x16_o0_0_15_S128x64x1 : S128x64x16.Slices ![0, 0, 15] S128x64x1
  reduces_S128x128x64_S128x64 : S128x128x64.Reduces [1] S128x64
  concatenates_S512x512_S512x64_S512x576_d1 : Shape.Concatenates [S512x512, S512x64] S512x576 1
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x512.size a
  hwx0_0 : ∀ i : grid0.Coords, EltTy.bits .f32 = 32 ∨ (Rect.block (s := S512x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .f32 = 32 ∨ (Rect.block (s := S512x1024) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64x16.size a ≤ S512x64x16.size a
  hwx1_0 : ∀ i : grid1.Coords, EltTy.bits .f32 = 32 ∨ (Rect.block (s := S512x64x16) S128x64x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64x16.size a ≤ S512x64x16.size a
  hwx1_1 : ∀ i : grid1.Coords, EltTy.bits .f32 = 32 ∨ (Rect.block (s := S512x64x16) S128x64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S512x64.size a
  hwx1_2 : ∀ i : grid1.Coords, EltTy.bits .f32 = 32 ∨ (Rect.block (s := S512x64) S128x64.size (cc1_transform_2 i) (hinb1_2 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S128x64x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x64x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x512 : Shape := ⟨2, ![512, 512]⟩
abbrev S512x64x16 : Shape := ⟨3, ![512, 64, 16]⟩
abbrev S512x1024 : Shape := ⟨2, ![512, 1024]⟩
abbrev S1x512x64x16 : Shape := ⟨4, ![1, 512, 64, 16]⟩
abbrev S512x1x64x16 : Shape := ⟨4, ![512, 1, 64, 16]⟩
abbrev S512x512x64x16 : Shape := ⟨4, ![512, 512, 64, 16]⟩
abbrev S_ : Shape := ⟨0, ![]⟩
abbrev S512x512x64 : Shape := ⟨3, ![512, 512, 64]⟩
abbrev S512x64 : Shape := ⟨2, ![512, 64]⟩
abbrev S512x576 : Shape := ⟨2, ![512, 576]⟩

abbrev nBuf : Space → Nat
  | .hbm => 21
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x64x16, .f32⟩
  | .hbm, ⟨2, _⟩ => ⟨S512x1024, .f32⟩
  | .hbm, ⟨3, _⟩ => ⟨S512x1024, .f32⟩
  | .hbm, ⟨4, _⟩ => ⟨S512x64x16, .f32⟩
  | .hbm, ⟨5, _⟩ => ⟨S1x512x64x16, .f32⟩
  | .hbm, ⟨6, _⟩ => ⟨S512x1x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S512x512x64x16, .f32⟩
  | .hbm, ⟨11, _⟩ => ⟨S_, .f32⟩
  | .hbm, ⟨12, _⟩ => ⟨S512x512x64, .f32⟩
  | .hbm, ⟨13, _⟩ => ⟨S512x512x64, .f32⟩
  | .hbm, ⟨14, _⟩ => ⟨S512x512x64, .f32⟩
  | .hbm, ⟨15, _⟩ => ⟨S_, .f32⟩
  | .hbm, ⟨16, _⟩ => ⟨S512x64, .f32⟩
  | .hbm, ⟨17, _⟩ => ⟨S_, .f32⟩
  | .hbm, ⟨18, _⟩ => ⟨S512x64, .f32⟩
  | .hbm, ⟨19, _⟩ => ⟨S512x64, .f32⟩
  | .hbm, ⟨20, _⟩ => ⟨S512x576, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S512x64x16_S512x1024 : S512x64x16.ShapeCasts S512x1024
  shapeCasts_S512x1024_S512x64x16 : S512x1024.ShapeCasts S512x64x16
  bcast_S512x64x16_S1x512x64x16_1_2_3 : S512x64x16.BroadcastsInDim S1x512x64x16 (![1, 2, 3] : Fin 3 → Fin S1x512x64x16.rank)
  bcast_S512x64x16_S512x1x64x16_0_2_3 : S512x64x16.BroadcastsInDim S512x1x64x16 (![0, 2, 3] : Fin 3 → Fin S512x1x64x16.rank)
  bcast_S1x512x64x16_S512x512x64x16_0_1_2_3 : S1x512x64x16.BroadcastsInDim S512x512x64x16 (![0, 1, 2, 3] : Fin 4 → Fin S512x512x64x16.rank)
  bcast_S512x1x64x16_S512x512x64x16_0_1_2_3 : S512x1x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  reducesTo_S512x512x64_S512x64_d0 : S512x512x64.ReducesTo [0] S512x64
  bcast_S_S512x64 : S_.BroadcastsInDim S512x64 (![] : Fin 0 → Fin S512x64.rank)
  concatenates_S512x512_S512x64_S512x576_d1 : Shape.Concatenates [S512x512, S512x64] S512x576 1
  dot_S512x512_S512x1024_S512x1024_1_0_0_1_n_n_wf : DotDims.WF S512x512 S512x1024 S512x1024 [1] [0] [0] [1] [] []

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

class Facts : Prop extends Facts₀ where

variable [Facts]
-- ==== Proof.K.Region0.lean ====
/- REGION 0 of @main: the first TensorCore call, a matrix product on a grid of 4 points.
   Everything here is stated at a PARAMETER V — the TensorCore's buffer contents when the region is
   entered — and at any float carrier F. Per window: its block at a point read off its array; what the
   body leaves in the output window's staging buffer as a closed function of the two input blocks; the
   body's triple; the proof data of the pipeline; and the body obligation at a generic point. -/
import proofs.«145708_j1580547970506_1_alg».proof.Proof.Gen.Kernel.Launch
import proofs.«145708_j1580547970506_1_alg».proof.Proof.Gen.Kernel.Skeleton
import proofs.«145708_j1580547970506_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles here have an axis of 1024 coordinates
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore at the moment the region starts
variable (V : (c : Dev nD) → (b : Ref sig .tc) → Buf (Elt F) ((c : Thread nD τ).loc b))

/-! ## The blocks of the windows -/

/-- The block of window w at grid point t: the part of the window's array (at its entry contents V) that the
    block index of the point selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's window (a band of 128 rows, a new one at each point): whatever proof data has V's array
    for it and a body that leaves the block where it is, the current staging buffer holds the block of the
    point. The window is never cut and never idle; where it is not fetched its index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's window (the whole 512×1024 matrix, brought in once at the first point and then kept):
    the same statement by the same argument — at the later points the window is not fetched, its block index
    (constantly the origin) has not moved, and the body left the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- The whole 128×512 buffer as a rectangle (the load of the left block). -/
abbrev r0_0 : Rect S128x512 := Rect.unit (s := S128x512) ![0, 0] S128x512.size inb_S128x512_S128x512_0_0
/-- The whole 512×1024 buffer as a rectangle (the load of the right matrix). -/
abbrev r0_1 : Rect S512x1024 := Rect.unit (s := S512x1024) ![0, 0] S512x1024.size inb_S512x1024_S512x1024_0_0
/-- The whole 128×1024 buffer as a rectangle (the one store, and the unused load before it). -/
abbrev r0_2 : Rect S128x1024 := Rect.unit (s := S128x1024) ![0, 0] S128x1024.size inb_S128x1024_S128x1024_0_0

/-! ## What the body leaves in the output window's buffer -/

/-- The output staging buffer after the body, as a function of the two input blocks: the body stores once, the
    product payload of the two loaded values, through the rectangle that is the whole buffer. -/
def out0_2 (x0 : Vec F S128x512 .f32) (x1 : Vec F S512x1024 .f32) : Vec F S128x1024 .f32 :=
  View.canon [⟨r0_2, k0_pay1 (View.ld x0 r0_0) (View.ld x1 r0_1)⟩]

/-- That single store's rectangle tiles the buffer, so every index of the buffer lies in it. -/
theorem cover0_2 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

/-! ## The triple of the body -/

set_option maxHeartbeats 1000000 in
/-- The body on three whole staging memrefs — the two inputs at read contents x0, x1 and the output at any
    contents — runs to a continuation that gets the inputs back unchanged and the output at out0_2 x0 x1.
    The printed function is its skeleton; the skeleton is three loads (the third, of the output buffer, reads a
    value nothing uses) and one store, run symbolically. -/
theorem sound_kernel0 (c : Dev nD) (E : Set ℕ) (i : grid0.Coords)
    (arg1 : Memref sig .tc .vmem S128x512 .f32) (harg1 : arg1.IsWhole)
    (arg2 : Memref sig .tc .vmem S512x1024 .f32) (harg2 : arg2.IsWhole)
    (arg3 : Memref sig .tc .vmem S128x1024 .f32) (harg3 : arg3.IsWhole)
    (x0 : Vec F S128x512 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data of the first call's pipeline on core c. The arrays are what the region finds (V). After the
    body at point t each input buffer still holds its block and the output buffer holds out0_2 of the two
    blocks. The invariant is the plain class's (the scoped rest and the generator register, untouched); every
    share is full and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, whether fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

/-- What the body is entered with at point t: the invariant, the core's debt, and each window's current
    staging buffer at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input memrefs hold their blocks, so the body's triple applies; the invariant
    and the core's debt are carried around it unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Step.lean ====
/-
  One grid point of the pairwise kernel as a pure function.

  At a grid point (i, j) the body reads the query block q (rows of tile i) and the key block k (rows of tile j),
  both [128, 64, 16], and the accumulator acc [128, 64]; it forms, for every query row p, key row r and feature f,
  the L1 distance over the 16 kernel dimensions, applies exp(-·), sums over the 128 key rows and adds the result
  to the accumulator. `stepTerm q k acc` is that new accumulator, spelt exactly as the body's payloads compose.
  `zeroAcc` is the accumulator's reset at the first key tile and `finish acc` the output block written at the
  last key tile (the accumulator minus one).
-/
import proofs.«145708_j1580547970506_1_alg».proof.Proof.Gen.Kernel.Skeleton

noncomputable section

namespace Cert.Kernel.Hand

open Idealize.ShloMosaic Cert.Kernel Cert.Kernel.Gen

variable {F : FTy → Type} [FloatOps F]

/-- The accumulator after one grid point, from the two input blocks and the accumulator before it. -/
def stepTerm (q k : Vec F S128x64x16 .f32) (acc : Vec F S128x64 .f32) : FVec F S128x64 .f32 :=
  k1_pay1 (k1_pay4 q) (k1_pay5 k)
    (k1_pay11 (k1_pay4 q) (k1_pay5 k)
      (k1_pay9 (k1_pay4 q) (k1_pay5 k) (k1_pay6 q k) (k1_pay7 k) (k1_pay8 q)) (k1_pay10 (k1_pay4 q)))
    (k1_pay12 (k1_pay4 q)) (k1_pay13 (k1_pay5 k)) acc

/-- The accumulator's reset: all zeros. -/
def zeroAcc : FVec F S128x64 .f32 := k1_pay3 (F := F)

/-- The output block from the final accumulator: the accumulator minus one. -/
def finish (acc : Vec F S128x64 .f32) : FVec F S128x64 .f32 := k1_pay2 acc

end Cert.Kernel.Hand

end
-- ==== Proof.K.Body1.lean ====
/-
  The pairwise kernel's body as separation-logic triples, one per control case.

  The body branches twice on the key-tile coordinate j of the grid point (i, j): at j = 0 it first resets the
  accumulator scratch to zeros, and at the last key tile it writes the accumulator minus one to the output
  block. In every case it adds this point's contribution to the accumulator (`stepTerm q k ·`). So there are three
  cases over the key tiles: the first (reset, then accumulate), the middle ones (accumulate) and the last
  (accumulate, then write the output). A store through the whole-buffer rectangle leaves exactly its payload, and a
  load through it reads exactly the contents, so each case's contents are closed terms of the blocks.
-/
import proofs.«145708_j1580547970506_1_alg».proof.Proof.Gen.Kernel.Launch
import proofs.«145708_j1580547970506_1_alg».proof.Proof.Gen.Kernel.Skeleton
import proofs.«145708_j1580547970506_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«145708_j1580547970506_1_alg».proof.Proof.K.Step
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch's condition: the key-tile coordinate is 0. -/
abbrev condFirst (i : grid1.Coords) : Prop :=
  (Scalar.cmpi .ne (Scalar.extui (Scalar.cmpi .eq (BitVec.ofNat 32 (i 1).val) 0#32)) 0#32) = 1#1
/-- The second branch's condition: the key-tile coordinate is the last one. -/
abbrev condLast (i : grid1.Coords) : Prop := k1_cond2 i = 1#1

/-- The zero offsets of a rank-2 whole-buffer rectangle. -/
theorem zero2 : (![0, 0] : Fin 2 → Nat) = fun _ => 0 := by
  funext a; match a with | ⟨0, _⟩ => rfl | ⟨1, _⟩ => rfl
/-- The zero offsets of a rank-3 whole-buffer rectangle. -/
theorem zero3 : (![0, 0, 0] : Fin 3 → Nat) = fun _ => 0 := by
  funext a; match a with | ⟨0, _⟩ => rfl | ⟨1, _⟩ => rfl | ⟨2, _⟩ => rfl

/-- One store through the whole-buffer rectangle covers the buffer. -/
theorem cover64 (p : Vec F S128x64 .f32) (y : S128x64.Idx) :
    ∃ pc ∈ ([⟨Rect.unit (s := S128x64) ![0, 0] S128x64.size inb_S128x64_S128x64_0_0, p⟩] : List (View.Piece (Elt F) S128x64 .f32)), y ∈ pc.1.set :=
  ⟨_, List.mem_singleton_self _, View.mem_set_unit_zero zero2 inb_S128x64_S128x64_0_0 y⟩

/-- A load of a whole [128, 64, 16] block reads the block. -/
theorem ld3 (x : Vec F S128x64x16 .f32) :
    View.ld x (Rect.unit (s := S128x64x16) ![0, 0, 0] ![128, 64, 16] inb_S128x64x16_S128x64x16_0_0_0) = x :=
  View.ld_unit_zero (S := S128x64x16) zero3 inb_S128x64x16_S128x64x16_0_0_0 x
theorem ld3' (x : Vec F S128x64x16 .f32) :
    View.ld x (Rect.unit (s := S128x64x16) ![0, 0, 0] S128x64x16.size inb_S128x64x16_S128x64x16_0_0_0) = x :=
  View.ld_unit_zero (S := S128x64x16) zero3 inb_S128x64x16_S128x64x16_0_0_0 x
theorem ld2' (x : Vec F S128x64 .f32) :
    View.ld x (Rect.unit (s := S128x64) ![0, 0] S128x64.size inb_S128x64_S128x64_0_0) = x :=
  View.ld_unit_zero (S := S128x64) zero2 inb_S128x64_S128x64_0_0 x
/-- A load of the whole accumulator after ONE whole store reads that store's payload. -/
theorem rc2 (v : View sig .tc .vmem S128x64 .f32) (w : Vec F S128x64 .f32) :
    v.readCov [(⟨Rect.unit (s := S128x64) ![0, 0] ![128, 64] inb_S128x64_S128x64_0_0, w⟩ : View.Piece (Elt F) S128x64 .f32)]
      (Rect.unit (s := S128x64) ![0, 0] ![128, 64] inb_S128x64_S128x64_0_0).toLoadRect = w :=
  View.readCov_unit_zero (S := S128x64) v zero2 inb_S128x64_S128x64_0_0 w
/-- A load of a whole [128, 64] block reads the block. -/
theorem ld2 (x : Vec F S128x64 .f32) :
    View.ld x (Rect.unit (s := S128x64) ![0, 0] ![128, 64] inb_S128x64_S128x64_0_0) = x :=
  View.ld_unit_zero (S := S128x64) zero2 inb_S128x64_S128x64_0_0 x

set_option maxHeartbeats 4000000 in
/-- A middle key tile: the accumulator is read, this point's contribution added, and stored back; the output block is not touched. -/
theorem run_middle (c : Dev nD) (i : grid1.Coords)
    (arg2 : Memref sig .tc .vmem S128x64x16 .f32) (harg2 : arg2.IsWhole) (arg3 : Memref sig .tc .vmem S128x64x16 .f32) (harg3 : arg3.IsWhole)
    (arg4 : Memref sig .tc .vmem S128x64 .f32) (harg4 : arg4.IsWhole) (arg5 : Memref sig .tc .vmem S128x64 .f32) (harg5 : arg5.IsWhole)
    (hc1 : ¬condFirst i) (hc2 : ¬condLast i)
    (x0 x1 : Vec F S128x64x16 .f32) (y : Vec F S128x64 .f32) (acc : Vec F S128x64 .f32) (E : Set ℕ) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare acc
        ∗ (iprop(owns (c : Thread nD τ) arg2 fullShare x0 ∗ owns (c : Thread nD τ) arg3 fullShare x1
            ∗ owns (c : Thread nD τ) arg4 fullShare (y) ∗ owns (c : Thread nD τ) arg5 fullShare (stepTerm x0 x1 acc)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  rw [View.read_writes_eq_canon _ _ _ (cover64 _), View.canon_unit_zero zero2]
  sl_unfold_run_names
  simp only [View.readAt_eq_ld, harg5.read_unread, harg2.read_unread, harg3.read_unread, ld2, ld3]
  rfl

set_option maxHeartbeats 4000000 in
/-- The first key tile: the accumulator is reset to zeros, then this point's contribution is added; the output block is not touched. -/
theorem run_first (c : Dev nD) (i : grid1.Coords)
    (arg2 : Memref sig .tc .vmem S128x64x16 .f32) (harg2 : arg2.IsWhole) (arg3 : Memref sig .tc .vmem S128x64x16 .f32) (harg3 : arg3.IsWhole)
    (arg4 : Memref sig .tc .vmem S128x64 .f32) (harg4 : arg4.IsWhole) (arg5 : Memref sig .tc .vmem S128x64 .f32) (harg5 : arg5.IsWhole)
    (hc1 : condFirst i) (hc2 : ¬condLast i)
    (x0 x1 : Vec F S128x64x16 .f32) (y : Vec F S128x64 .f32) (acc : Vec F S128x64 .f32) (E : Set ℕ) (K : PUnit → sProp 𝕄) :
    iprop(owns (c : Thread nD τ) arg2 fullShare x0 ∗ owns (c : Thread nD τ) arg3 fullShare x1
        ∗ owns (c : Thread nD τ) arg4 fullShare y ∗ (∃ d, owns (c : Thread nD τ) arg5 fullShare d)
        ∗ (iprop(owns (c : Thread nD τ) arg2 fullShare x0 ∗ owns (c : Thread nD τ) arg3 fullShare x1
            ∗ owns (c : Thread nD τ) arg4 fullShare (y) ∗ owns (c : Thread nD τ) arg5 fullShare (stepTerm x0 x1 zeroAcc)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  rw [View.read_writes_eq_canon _ _ _ (fun y => ⟨_, List.mem_cons_self, View.mem_set_unit_zero zero2 inb_S128x64_S128x64_0_0 y⟩),
    View.canon_cons_unit_zero zero2]
  sl_unfold_run_names
  simp only [rc2, View.readAt_eq_ld, harg5.read_unread, harg2.read_unread, harg3.read_unread, ld2, ld3, ld2', ld3']
  rfl

set_option maxHeartbeats 4000000 in
/-- The last key tile: this point's contribution is added to the accumulator, and the accumulator minus one is written to the output block. -/
theorem run_last (c : Dev nD) (i : grid1.Coords)
    (arg2 : Memref sig .tc .vmem S128x64x16 .f32) (harg2 : arg2.IsWhole) (arg3 : Memref sig .tc .vmem S128x64x16 .f32) (harg3 : arg3.IsWhole)
    (arg4 : Memref sig .tc .vmem S128x64 .f32) (harg4 : arg4.IsWhole) (arg5 : Memref sig .tc .vmem S128x64 .f32) (harg5 : arg5.IsWhole)
    (hc1 : ¬condFirst i) (hc2 : condLast i)
    (x0 x1 : Vec F S128x64x16 .f32) (y : Vec F S128x64 .f32) (acc : Vec F S128x64 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare acc
        ∗ (iprop(owns (c : Thread nD τ) arg2 fullShare x0 ∗ owns (c : Thread nD τ) arg3 fullShare x1
            ∗ owns (c : Thread nD τ) arg4 fullShare (finish (stepTerm x0 x1 acc)) ∗ owns (c : Thread nD τ) arg5 fullShare (stepTerm x0 x1 acc)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    rw [View.read_writes_eq_canon _ _ _ (cover64 _), View.canon_unit_zero zero2]
    sl_unfold_run_names
    simp only [rc2, View.readAt_eq_ld, harg5.read_unread, harg2.read_unread, harg3.read_unread, ld2, ld3, ld2', ld3']
    rfl
  iexists _; isplitr
  swap; · iexact H5
  ipureintro
  sl_unfold_run_names
  rw [View.read_writes_eq_canon _ _ _ (cover64 _), View.canon_unit_zero zero2]
  simp only [rc2, View.readAt_eq_ld, harg5.read_unread, harg2.read_unread, harg3.read_unread, ld2, ld3, ld2', ld3']
  rfl

end Cert.Kernel.Hand

end
-- ==== Proof.K.Region1.lean ====
/-
  The pairwise region's proof data: what every staging buffer and the accumulator scratch hold point by point.

  The grid is 4 query tiles by 4 key tiles, walked key tile fastest: position n is the pair (n / 4, n % 4). The
  two input windows read the SAME array (the projected features): window 0 its query tile's rows, window 1 its key
  tile's rows. The accumulator scratch is reset at key tile 0, gains one contribution per point, and at key tile 3
  the output block receives the accumulator minus one; at the other points the output window is idle (nothing is
  stored into it and it is not written back). `accAt n` is the accumulator after position n.
-/
import proofs.«145708_j1580547970506_1_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, fetched there or not: between fetches the
    block index does not move and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid -/

/-- The reset branch is taken exactly at key tile 0. -/
theorem hcondFirst : ∀ t : Fin cfg1.N, condFirst (grid1.coords t) ↔ t.val % 4 = 0 :=
  (by decide +kernel : ∀ t : Fin grid1.N, condFirst (grid1.coords t) ↔ t.val % 4 = 0)
/-- The output branch is taken exactly at key tile 3. -/
theorem hcondLast : ∀ t : Fin cfg1.N, condLast (grid1.coords t) ↔ t.val % 4 = 3 :=
  (by decide +kernel : ∀ t : Fin grid1.N, condLast (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from key tile 3 the output window is idle and not written back. -/
theorem idleAt1_2 : ∀ t : Fin cfg1.N, ¬condLast (grid1.coords t) → cfg1.idle 2 (grid1.coords t) = true := by decide +kernel
theorem noFlush1_2 : ∀ t : Fin cfg1.N, ¬condLast (grid1.coords t) → (cfg1.win 2).flush t = false := by decide +kernel
/-- At key tile 3 it is live. -/
theorem liveAt1_2 : ∀ t : Fin cfg1.N, condLast (grid1.coords t) → cfg1.idle 2 (grid1.coords t) = false := by decide +kernel

/-! ## The accumulator, point by point -/

/-- The accumulator scratch after position `n`: at key tile 0 this point's contribution over zeros, else over what the
    point before left. -/
def accAt (c : Dev nD) : (n : ℕ) → n < cfg1.N → Vec F S128x64 .f32
  | 0, hn => stepTerm (iblk1 V c 0 ⟨0, hn⟩) (iblk1 V c 1 ⟨0, hn⟩) zeroAcc
  | n + 1, hn =>
    if (n + 1) % 4 = 0 then stepTerm (iblk1 V c 0 ⟨n + 1, hn⟩) (iblk1 V c 1 ⟨n + 1, hn⟩) zeroAcc
    else stepTerm (iblk1 V c 0 ⟨n + 1, hn⟩) (iblk1 V c 1 ⟨n + 1, hn⟩) (accAt c n (Nat.lt_of_succ_lt hn))

/-- At key tile 0 the accumulator starts afresh. -/
theorem accAt_first (c : Dev nD) (t : Fin cfg1.N) (h0 : t.val % 4 = 0) :
    accAt V c t.val t.isLt = stepTerm (iblk1 V c 0 t) (iblk1 V c 1 t) zeroAcc := by
  obtain ⟨n, hn⟩ := t
  cases n with
  | zero => rfl
  | succ n => exact (if_pos h0).trans rfl

/-- At the other key tiles it continues from the point before. -/
theorem accAt_next (c : Dev nD) (t : Fin cfg1.N) (h0 : ¬t.val % 4 = 0) :
    accAt V c t.val t.isLt = stepTerm (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The region invariant: the scoped buffers the pipeline does not stage -/

/-- The accumulator scratch as a memref. -/
abbrev scM : Memref sig .tc .vmem S128x64 .f32 := Memref.whole cc1_scratch0

/-- The other pallas_call's staging buffers, each at some contents, beside a statement `S` about the accumulator
    scratch: the scoped buffers region 1's pipeline does not stage. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The class invariant (the unstaged scoped buffers at anything, the generator register at some state) with the
    accumulator scratch singled out. -/
theorem PhiA1_eq (c : Dev nD) :
    (Pipeline.ΦA spec1 c : sProp 𝕄)
      = iprop(restWith (F := F) c (iprop(∃ d, owns (c : Thread nD τ) scM fullShare d)) ∗ (∃ r, prngReg c r)) := by
  unfold Pipeline.ΦA restWith; rw [scopedRest1_eq]; simp only [scM, owns_whole]; try rfl

/-- The invariant before position `n`: before the first point every unstaged scoped buffer at anything; afterwards
    the accumulator scratch at what the point before left. -/
def PhiS (c : Dev nD) : (n : ℕ) → n ≤ cfg1.N → sProp 𝕄
  | 0, _ => Pipeline.ΦA spec1 c
  | n + 1, hn => iprop(restWith (F := F) c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith (F := F) c (owns (c : Thread nD τ) scM fullShare (accAt V c n hn)) ∗ (∃ r, prngReg c r)) := rfl

theorem PhiS_pos (c : Dev nD) (n : ℕ) (h : n ≤ cfg1.N) (hz : n ≠ 0) :
    PhiS V c n h = iprop(restWith (F := F) c (owns (c : Thread nD τ) scM fullShare (accAt V c (n - 1) (by omega))) ∗ (∃ r, prngReg c r)) := by
  cases n with
  | zero => exact absurd rfl hz
  | succ n => rfl

/-! ## The proof data -/

/-- The proof data of the pairwise pipeline on core `c`: the arrays as the region finds them; after the body each
    input's buffer at its block, the output's at the accumulator minus one (consulted only at key tile 3); the two
    input windows hold their common array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => finish (accAt V c t.val t.isLt)
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = finish (accAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.Kernel.Hand

end
-- ==== Proof.K.Oblig1.lean ====
/-
  The pairwise region's body obligation: at every grid point the body, handed the invariant and each window's current
  staging buffer, returns them at the next point's contents. The point's position decides the case: key tile 0
  (the accumulator is reset first), key tile 3 (the output block is written), or a middle key tile.
-/
import proofs.«145708_j1580547970506_1_alg».proof.Proof.K.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the invariant hands over the accumulator scratch
    (at anything before the first point, else at what the point before left) and takes it back at this point's
    accumulator; the output's buffer comes back untouched except at key tile 3, where it holds the accumulator minus
    one. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  have hN : t.val < 16 := lt_of_lt_of_eq t.isLt (show cfg1.N = 16 from N_1)
  by_cases h0 : t.val % 4 = 0
  · have hl : ¬condLast (grid1.coords t) := fun h => by have := (hcondLast t).mp h; omega
    rw [Dat.leavesExact_idle (dat1 V c) 2 t (idleAt1_2 t hl) (noFlush1_2 t hl)]
    rw [accAt_first V c t h0]
    by_cases hz : t.val = 0
    · rw [PhiS_castSucc V c t, PhiS_zero V c _ _ hz, PhiA1_eq]
      unfold restWith
      iintro ⟨⟨⟨Ha, Hb, Hc, Hd, He, HS⟩, Hg⟩, Ho, ⟨%d0, H0⟩, ⟨%d1, H1⟩, ⟨%d2, H2⟩⟩
      iapply (run_first c (grid1.coords t) _ _ _ _ _ _ _ _ ((hcondFirst t).mpr h0) hl (iblk1 V c 0 t) (iblk1 V c 1 t) _ zeroAcc Set.univ _)
      isplitl [H0]; · iexact H0
      isplitl [H1]; · iexact H1
      isplitl [H2]; · iexact H2
      isplitl [HS]; · iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexists _; iexact H2
    · rw [PhiS_castSucc V c t, PhiS_pos V c _ _ hz]
      unfold restWith
      iintro ⟨⟨⟨Ha, Hb, Hc, Hd, He, HS⟩, Hg⟩, Ho, ⟨%d0, H0⟩, ⟨%d1, H1⟩, ⟨%d2, H2⟩⟩
      iapply (run_first c (grid1.coords t) _ _ _ _ _ _ _ _ ((hcondFirst t).mpr h0) hl (iblk1 V c 0 t) (iblk1 V c 1 t) _ zeroAcc Set.univ _)
      isplitl [H0]; · iexact H0
      isplitl [H1]; · iexact H1
      isplitl [H2]; · iexact H2
      isplitl [HS]; · iexists _; iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexists _; iexact H2
  · have hf : ¬condFirst (grid1.coords t) := fun h => h0 ((hcondFirst t).mp h)
    have hz : t.val ≠ 0 := fun e => h0 (by rw [e])
    rw [accAt_next V c t h0]
    rw [PhiS_castSucc V c t, PhiS_pos V c _ _ hz]
    unfold restWith
    by_cases h3 : t.val % 4 = 3
    · have hl : condLast (grid1.coords t) := (hcondLast t).mpr h3
      rw [show (dat1 V c).leavesExact 2 t = owns (c : Thread nD τ) (st1_2 t) fullShare ((dat1 V c).after 2 t) from by
          unfold Dat.leavesExact; rw [liveAt1_2 t hl], after1_2, accAt_next V c t h0]
      iintro ⟨⟨⟨Ha, Hb, Hc, Hd, He, HS⟩, Hg⟩, Ho, ⟨%d0, H0⟩, ⟨%d1, H1⟩, ⟨%d2, H2⟩⟩
      iapply (run_last c (grid1.coords t) _ _ _ _ _ _ _ _ hf hl (iblk1 V c 0 t) (iblk1 V c 1 t) zeroAcc _ Set.univ _)
      isplitl [H0]; · iexact H0
      isplitl [H1]; · iexact H1
      isplitl [H2]; · iexists _; iexact H2
      isplitl [HS]; · iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexact H2
    · have hl : ¬condLast (grid1.coords t) := fun h => h3 ((hcondLast t).mp h)
      rw [Dat.leavesExact_idle (dat1 V c) 2 t (idleAt1_2 t hl) (noFlush1_2 t hl)]
      iintro ⟨⟨⟨Ha, Hb, Hc, Hd, He, HS⟩, Hg⟩, Ho, ⟨%d0, H0⟩, ⟨%d1, H1⟩, ⟨%d2, H2⟩⟩
      iapply (run_middle c (grid1.coords t) _ _ _ _ _ _ _ _ hf hl (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 16 := N_1; omega
  rw [show (dat1 V c).Φ (Fin.last cfg1.N) = PhiS V c (Fin.last cfg1.N).val (Nat.le_of_lt_succ (Fin.last cfg1.N).isLt) from rfl,
    PhiS_pos V c _ _ hne, PhiA1_eq]
  unfold restWith
  iintro ⟨⟨Ha, Hb, Hc, Hd, He, HS⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS
  iexact Hg

end Cert.Kernel.Hand

end
-- ==== Proof.K.Run0.lean ====
/-
  The whole program as a run: host reshape, the matmul region, host reshape, the pairwise region, host concatenate.

  Between two items every unscoped buffer of the core is held at a known valuation: the launch memory, then each host
  stretch applied, then each region's output array replaced by what its write-backs leave. The final valuation reads
  the result buffer as the concatenation of the first argument and the pairwise region's output, and both arguments as
  launched.
-/
import proofs.«145708_j1580547970506_1_alg».proof.Proof.K.Region0
import proofs.«145708_j1580547970506_1_alg».proof.Proof.K.Oblig1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)
/-- After the first reshape (the matmul region's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the matmul region's exit: its output array at what the write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second reshape (the pairwise region's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the pairwise region's exit: its output array at what the write-backs leave, every other buffer as entered. -/
def W4 (c : Dev nD) : Valuation τ sig (Elt F) :=
  Function.update (W3 m ρ c) (Proc.devRef .tc main_v3) ((dat1 (E3 m ρ) c).arrAt 2 cfg1.N)
abbrev E4 : (c : Dev nD) → (b : Ref sig .tc) → Buf (Elt F) ((c : Thread nD τ).loc b) := fun c b => W4 m ρ c b
theorem W4_out (c : Dev nD) : E4 m ρ c main_v3 = (dat1 (E3 m ρ) c).arrAt 2 cfg1.N := by
  show Function.update _ _ _ _ = _; exact Function.update_self _ _ _
theorem W4_of_ne (c : Dev nD) (b : Ref sig .tc) (hb : b ≠ main_v3) : E4 m ρ c b = E3 m ρ c b := by
  show Function.update _ _ _ _ = _
  exact Function.update_of_ne (StableHlo.devRef_ne_of_ne hb) _ _
/-- After the concatenate. -/
abbrev W5 : Dev nD → Valuation τ sig (Elt F) := fun c => StableHlo.after hostOps2 (W4 m ρ c)

/-! ## The proof data family and what rides beside the buffers -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- Beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The matmul region as a segment -/

set_option backward.isDefEq.respectTransparency.types false in
/-- The matmul region: entered with every unscoped buffer at `W1`, left at `W2`. Its three arrays are distinct whole
    buffers split out of the unscoped buffers at entry and put back at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run1.lean ====
/-
  The pairwise region as a segment of the run, and the run itself.

  The pairwise region reads ONE array (the projected features) through two input windows. At entry that array's
  full share is dealt in its two halves, one per window; at exit the halves, still at the entry contents (an input
  array is never written), are joined again. The output array comes back at what the write-backs left.
-/
import proofs.«145708_j1580547970506_1_alg».proof.Proof.K.Run0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the pairwise region's three windows: the projected features and the output. -/
theorem arrs1 : Finset.univ.image (Pipeline.arrRef (cfgs (1 : Fin 2)).spec) = {main_v2, main_v3} := by decide

/-- ENTRY: the core's unscoped buffers are the pairwise region's arrays at the entry contents — the shared input at
    one half share per window — and the rest. -/
theorem entry1 (c : Dev nD) :
    (unscopedBufs c (E3 m ρ c) : sProp 𝕄)
      ⊢ iprop((dat1 (E3 m ρ) c).arrays ((dat1 (E3 m ρ) c).arrAt · 0) ∗ Pipeline.unscopedRest spec1 c (E3 m ρ c)) := by
  rw [Pipeline.unscopedBufs_split₀ cfgs (1 : Fin 2) winFacts₀1.arr_unscoped c (E3 m ρ c)]
  refine sep_mono ?_ .rfl
  unfold Pipeline.arrBufs Dat.arrays
  rw [arrs1, bigSep_W1, bigSep_insert (by decide), bigSep_singleton,
    (arr_whole1 0).set_eq_univ, (arr_whole1 2).set_eq_univ]
  show iprop((((c : Thread nD τ).loc main_v2) ↦{fullShare} E3 m ρ c main_v2) ∗ (((c : Thread nD τ).loc main_v3) ↦{fullShare} E3 m ρ c main_v3)) ⊢ _
  iintro ⟨H2, H3⟩
  ihave Hs := (pointsTo_share (PosShare.mem_left_op_right fullShare)).1 $$ H2
  icases Hs with ⟨HL, HR⟩
  isplitl [HL]; · iexact HL
  isplitl [HR]; · iexact HR
  iexact H3

/-- EXIT: the arrays at their final contents and the rest are the core's unscoped buffers at the exit valuation. -/
theorem exit1 (c : Dev nD) :
    iprop((dat1 (E3 m ρ) c).arrays ((dat1 (E3 m ρ) c).arrAt · cfg1.N) ∗ Pipeline.unscopedRest spec1 c (E3 m ρ c))
      ⊢ (unscopedBufs c (E4 m ρ c) : sProp 𝕄) := by
  rw [Pipeline.unscopedBufs_split₀ cfgs (1 : Fin 2) winFacts₀1.arr_unscoped c (E4 m ρ c)]
  refine sep_mono ?_ (Entails.of_eq ?_)
  · unfold Pipeline.arrBufs Dat.arrays
    rw [arrs1, bigSep_W1, bigSep_insert (by decide), bigSep_singleton,
      (arr_whole1 0).set_eq_univ, (arr_whole1 2).set_eq_univ]
    beta_reduce
    rw [(dat1 (E3 m ρ) c).arrAt_in 0 rfl, (dat1 (E3 m ρ) c).arrAt_in 1 rfl, A_eq1, A_eq1,
      W4_of_ne m ρ c main_v2 (by decide), W4_out]
    show _ ⊢ iprop((((c : Thread nD τ).loc main_v2) ↦{fullShare} E3 m ρ c main_v2) ∗ (((c : Thread nD τ).loc main_v3) ↦{fullShare} (dat1 (E3 m ρ) c).arrAt 2 cfg1.N))
    iintro ⟨HL, HR, H3⟩
    isplitl [HL HR]
    · iapply (pointsTo_share (PosShare.mem_left_op_right fullShare)).2
      isplitl [HL]; · iexact HL
      iexact HR
    iexact H3
  · unfold Pipeline.unscopedRest
    exact bigSep_congr fun b hb => by
      rw [W4_of_ne m ρ c b (fun e => (Finset.mem_sdiff.mp hb).2 (by
        show b ∈ Finset.univ.image (Pipeline.arrRef (cfgs (1 : Fin 2)).spec)
        rw [arrs1, e]; decide))]

set_option backward.isDefEq.respectTransparency.types false in
/-- The pairwise region: entered with every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit : (unscopedBufs c (E3 m ρ c) : sProp 𝕄)
        ⊢ iprop((pdats m ρ 1 c).arrays ((pdats m ρ 1 c).arrAt · 0) ∗ Pipeline.unscopedRest spec1 c (E3 m ρ c)) := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m ρ) c)
    unfold Pipeline.ΦA
    iintro ⟨Hp, -, Hr⟩
    isplitl [Hr]; · iexact Hr
    iexact Hp
  hout c := by
    rw [Pipeline.ownSems0_none]
    refine BIBase.Entails.trans (hout1 (E3 m ρ) c) ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (E3 m ρ c))
        ⊢ (unscopedBufs c (E4 m ρ c) : sProp 𝕄) := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

/-- The last thread state without the owed tallies: every unscoped buffer at the last valuation, the generator
    register at some state. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- THE RUN. From any memory with zero counters every weakly fair execution of the program terminates, nothing
    faulting, and in every final memory each unscoped buffer holds the last valuation's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.K.Ends.lean ====
/-
  What the last valuation holds at the argument buffers: no host operation writes an argument and no region's
  write-back reaches one (the matmul region reads the first argument through an input window, whose array is
  never written), so each argument is read back as launched.
-/
import proofs.«145708_j1580547970506_1_alg».proof.Proof.K.Run1
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first argument reaches the end as launched. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by
          show StableHlo.after hostOps2 (W4 m ρ c) (Proc.devRef .tc main_arg0) = _; after_results
    _ = W3 m ρ c (Proc.devRef .tc main_arg0) := W4_of_ne m ρ c main_arg0 (by decide)
    _ = W2 m ρ c (Proc.devRef .tc main_arg0) := by
          show StableHlo.after hostOps1 (W2 m ρ c) (Proc.devRef .tc main_arg0) = _; after_results
    _ = W1 m ρ c (Proc.devRef .tc main_arg0) :=
          (W2_arr m ρ c 0).trans (((dat0 (E1 m ρ) c).arrAt_in 0 rfl _).trans (A_eq0 (E1 m ρ) c 0))
    _ = W0 m ρ c (Proc.devRef .tc main_arg0) := by
          show StableHlo.after hostOps0 (W0 m ρ c) (Proc.devRef .tc main_arg0) = _; after_results
    _ = m ((c : Thread nD τ).loc main_arg0) := rfl

/-- The second argument reaches the end as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := by
          show StableHlo.after hostOps2 (W4 m ρ c) (Proc.devRef .tc main_arg1) = _; after_results
    _ = W3 m ρ c (Proc.devRef .tc main_arg1) := W4_of_ne m ρ c main_arg1 (by decide)
    _ = W2 m ρ c (Proc.devRef .tc main_arg1) := by
          show StableHlo.after hostOps1 (W2 m ρ c) (Proc.devRef .tc main_arg1) = _; after_results
    _ = W1 m ρ c (Proc.devRef .tc main_arg1) := W2_of_ne m ρ c main_arg1 (by decide)
    _ = W0 m ρ c (Proc.devRef .tc main_arg1) := by
          show StableHlo.after hostOps0 (W0 m ρ c) (Proc.devRef .tc main_arg1) = _; after_results
    _ = m ((c : Thread nD τ).loc main_arg1) := rfl

/-- THE FRAME: every weakly fair execution terminates, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
      (h c _ (mem_uc main_arg1 (by decide))).trans (W5_main_arg1 m ρ c)⟩) (run m ρ)

end Cert.Kernel.Hand

end
-- ==== Proof.KI.Region0.lean ====
/- REGION 0 of @main: the first TensorCore call, a matrix product on a grid of 4 points.
   Everything here is stated at a PARAMETER V — the TensorCore's buffer contents when the region is
   entered — and at any float carrier F. Per window: its block at a point read off its array; what the
   body leaves in the output window's staging buffer as a closed function of the two input blocks; the
   body's triple; the proof data of the pipeline; and the body obligation at a generic point. -/
import proofs.«145708_j1580547970506_1_alg».proof.Proof.Gen.KernelIdeal.Launch
import proofs.«145708_j1580547970506_1_alg».proof.Proof.Gen.KernelIdeal.Skeleton
import proofs.«145708_j1580547970506_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles here have an axis of 1024 coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore at the moment the region starts
variable (V : (c : Dev nD) → (b : Ref sig .tc) → Buf (Elt F) ((c : Thread nD τ).loc b))

/-! ## The blocks of the windows -/

/-- The block of window w at grid point t: the part of the window's array (at its entry contents V) that the
    block index of the point selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's window (a band of 128 rows, a new one at each point): whatever proof data has V's array
    for it and a body that leaves the block where it is, the current staging buffer holds the block of the
    point. The window is never cut and never idle; where it is not fetched its index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's window (the whole 512×1024 matrix, brought in once at the first point and then kept):
    the same statement by the same argument — at the later points the window is not fetched, its block index
    (constantly the origin) has not moved, and the body left the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- The whole 128×512 buffer as a rectangle (the load of the left block). -/
abbrev r0_0 : Rect S128x512 := Rect.unit (s := S128x512) ![0, 0] S128x512.size inb_S128x512_S128x512_0_0
/-- The whole 512×1024 buffer as a rectangle (the load of the right matrix). -/
abbrev r0_1 : Rect S512x1024 := Rect.unit (s := S512x1024) ![0, 0] S512x1024.size inb_S512x1024_S512x1024_0_0
/-- The whole 128×1024 buffer as a rectangle (the one store, and the unused load before it). -/
abbrev r0_2 : Rect S128x1024 := Rect.unit (s := S128x1024) ![0, 0] S128x1024.size inb_S128x1024_S128x1024_0_0

/-! ## What the body leaves in the output window's buffer -/

/-- The output staging buffer after the body, as a function of the two input blocks: the body stores once, the
    product payload of the two loaded values, through the rectangle that is the whole buffer. -/
def out0_2 (x0 : Vec F S128x512 .f32) (x1 : Vec F S512x1024 .f32) : Vec F S128x1024 .f32 :=
  View.canon [⟨r0_2, k0_pay1 (View.ld x0 r0_0) (View.ld x1 r0_1)⟩]

/-- That single store's rectangle tiles the buffer, so every index of the buffer lies in it. -/
theorem cover0_2 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

/-! ## The triple of the body -/

set_option maxHeartbeats 1000000 in
/-- The body on three whole staging memrefs — the two inputs at read contents x0, x1 and the output at any
    contents — runs to a continuation that gets the inputs back unchanged and the output at out0_2 x0 x1.
    The printed function is its skeleton; the skeleton is three loads (the third, of the output buffer, reads a
    value nothing uses) and one store, run symbolically. -/
theorem sound_kernel0 (c : Dev nD) (E : Set ℕ) (i : grid0.Coords)
    (arg1 : Memref sig .tc .vmem S128x512 .f32) (harg1 : arg1.IsWhole)
    (arg2 : Memref sig .tc .vmem S512x1024 .f32) (harg2 : arg2.IsWhole)
    (arg3 : Memref sig .tc .vmem S128x1024 .f32) (harg3 : arg3.IsWhole)
    (x0 : Vec F S128x512 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data of the first call's pipeline on core c. The arrays are what the region finds (V). After the
    body at point t each input buffer still holds its block and the output buffer holds out0_2 of the two
    blocks. The invariant is the plain class's (the scoped rest and the generator register, untouched); every
    share is full and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, whether fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

/-- What the body is entered with at point t: the invariant, the core's debt, and each window's current
    staging buffer at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input memrefs hold their blocks, so the body's triple applies; the invariant
    and the core's debt are carried around it unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Step.lean ====
/-
  One grid point of the pairwise kernel as a pure function.

  At a grid point (i, j) the body reads the query block q (rows of tile i) and the key block k (rows of tile j),
  both [128, 64, 16], and the accumulator acc [128, 64]; it forms, for every query row p, key row r and feature f,
  the L1 distance over the 16 kernel dimensions, applies exp(-·), sums over the 128 key rows and adds the result
  to the accumulator. `stepTerm q k acc` is that new accumulator, spelt exactly as the body's payloads compose.
  `zeroAcc` is the accumulator's reset at the first key tile and `finish acc` the output block written at the
  last key tile (the accumulator minus one).
-/
import proofs.«145708_j1580547970506_1_alg».proof.Proof.Gen.KernelIdeal.Skeleton

noncomputable section

namespace Cert.KernelIdeal.Hand

open Idealize.ShloMosaic Cert.KernelIdeal Cert.KernelIdeal.Gen

variable {F : FTy → Type} [FloatOps F]

/-- The accumulator after one grid point, from the two input blocks and the accumulator before it. -/
def stepTerm (q k : Vec F S128x64x16 .f32) (acc : Vec F S128x64 .f32) : FVec F S128x64 .f32 :=
  k1_pay1 (k1_pay4 q) (k1_pay5 k)
    (k1_pay11 (k1_pay4 q) (k1_pay5 k)
      (k1_pay9 (k1_pay4 q) (k1_pay5 k) (k1_pay6 q k) (k1_pay7 k) (k1_pay8 q)) (k1_pay10 (k1_pay4 q)))
    (k1_pay12 (k1_pay4 q)) (k1_pay13 (k1_pay5 k)) acc

/-- The accumulator's reset: all zeros. -/
def zeroAcc : FVec F S128x64 .f32 := k1_pay3 (F := F)

/-- The output block from the final accumulator: the accumulator minus one. -/
def finish (acc : Vec F S128x64 .f32) : FVec F S128x64 .f32 := k1_pay2 acc

end Cert.KernelIdeal.Hand

end
-- ==== Proof.KI.Body1.lean ====
/-
  The pairwise kernel's body as separation-logic triples, one per control case.

  The body branches twice on the key-tile coordinate j of the grid point (i, j): at j = 0 it first resets the
  accumulator scratch to zeros, and at the last key tile it writes the accumulator minus one to the output
  block. In every case it adds this point's contribution to the accumulator (`stepTerm q k ·`). So there are three
  cases over the key tiles: the first (reset, then accumulate), the middle ones (accumulate) and the last
  (accumulate, then write the output). A store through the whole-buffer rectangle leaves exactly its payload, and a
  load through it reads exactly the contents, so each case's contents are closed terms of the blocks.
-/
import proofs.«145708_j1580547970506_1_alg».proof.Proof.Gen.KernelIdeal.Launch
import proofs.«145708_j1580547970506_1_alg».proof.Proof.Gen.KernelIdeal.Skeleton
import proofs.«145708_j1580547970506_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«145708_j1580547970506_1_alg».proof.Proof.KI.Step
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch's condition: the key-tile coordinate is 0. -/
abbrev condFirst (i : grid1.Coords) : Prop :=
  (Scalar.cmpi .ne (Scalar.extui (Scalar.cmpi .eq (BitVec.ofNat 32 (i 1).val) 0#32)) 0#32) = 1#1
/-- The second branch's condition: the key-tile coordinate is the last one. -/
abbrev condLast (i : grid1.Coords) : Prop := k1_cond2 i = 1#1

/-- The zero offsets of a rank-2 whole-buffer rectangle. -/
theorem zero2 : (![0, 0] : Fin 2 → Nat) = fun _ => 0 := by
  funext a; match a with | ⟨0, _⟩ => rfl | ⟨1, _⟩ => rfl
/-- The zero offsets of a rank-3 whole-buffer rectangle. -/
theorem zero3 : (![0, 0, 0] : Fin 3 → Nat) = fun _ => 0 := by
  funext a; match a with | ⟨0, _⟩ => rfl | ⟨1, _⟩ => rfl | ⟨2, _⟩ => rfl

/-- One store through the whole-buffer rectangle covers the buffer. -/
theorem cover64 (p : Vec F S128x64 .f32) (y : S128x64.Idx) :
    ∃ pc ∈ ([⟨Rect.unit (s := S128x64) ![0, 0] S128x64.size inb_S128x64_S128x64_0_0, p⟩] : List (View.Piece (Elt F) S128x64 .f32)), y ∈ pc.1.set :=
  ⟨_, List.mem_singleton_self _, View.mem_set_unit_zero zero2 inb_S128x64_S128x64_0_0 y⟩

/-- A load of a whole [128, 64, 16] block reads the block. -/
theorem ld3 (x : Vec F S128x64x16 .f32) :
    View.ld x (Rect.unit (s := S128x64x16) ![0, 0, 0] ![128, 64, 16] inb_S128x64x16_S128x64x16_0_0_0) = x :=
  View.ld_unit_zero (S := S128x64x16) zero3 inb_S128x64x16_S128x64x16_0_0_0 x
theorem ld3' (x : Vec F S128x64x16 .f32) :
    View.ld x (Rect.unit (s := S128x64x16) ![0, 0, 0] S128x64x16.size inb_S128x64x16_S128x64x16_0_0_0) = x :=
  View.ld_unit_zero (S := S128x64x16) zero3 inb_S128x64x16_S128x64x16_0_0_0 x
theorem ld2' (x : Vec F S128x64 .f32) :
    View.ld x (Rect.unit (s := S128x64) ![0, 0] S128x64.size inb_S128x64_S128x64_0_0) = x :=
  View.ld_unit_zero (S := S128x64) zero2 inb_S128x64_S128x64_0_0 x
/-- A load of the whole accumulator after ONE whole store reads that store's payload. -/
theorem rc2 (v : View sig .tc .vmem S128x64 .f32) (w : Vec F S128x64 .f32) :
    v.readCov [(⟨Rect.unit (s := S128x64) ![0, 0] ![128, 64] inb_S128x64_S128x64_0_0, w⟩ : View.Piece (Elt F) S128x64 .f32)]
      (Rect.unit (s := S128x64) ![0, 0] ![128, 64] inb_S128x64_S128x64_0_0).toLoadRect = w :=
  View.readCov_unit_zero (S := S128x64) v zero2 inb_S128x64_S128x64_0_0 w
/-- A load of a whole [128, 64] block reads the block. -/
theorem ld2 (x : Vec F S128x64 .f32) :
    View.ld x (Rect.unit (s := S128x64) ![0, 0] ![128, 64] inb_S128x64_S128x64_0_0) = x :=
  View.ld_unit_zero (S := S128x64) zero2 inb_S128x64_S128x64_0_0 x

set_option maxHeartbeats 4000000 in
/-- A middle key tile: the accumulator is read, this point's contribution added, and stored back; the output block is not touched. -/
theorem run_middle (c : Dev nD) (i : grid1.Coords)
    (arg2 : Memref sig .tc .vmem S128x64x16 .f32) (harg2 : arg2.IsWhole) (arg3 : Memref sig .tc .vmem S128x64x16 .f32) (harg3 : arg3.IsWhole)
    (arg4 : Memref sig .tc .vmem S128x64 .f32) (harg4 : arg4.IsWhole) (arg5 : Memref sig .tc .vmem S128x64 .f32) (harg5 : arg5.IsWhole)
    (hc1 : ¬condFirst i) (hc2 : ¬condLast i)
    (x0 x1 : Vec F S128x64x16 .f32) (y : Vec F S128x64 .f32) (acc : Vec F S128x64 .f32) (E : Set ℕ) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare acc
        ∗ (iprop(owns (c : Thread nD τ) arg2 fullShare x0 ∗ owns (c : Thread nD τ) arg3 fullShare x1
            ∗ owns (c : Thread nD τ) arg4 fullShare (y) ∗ owns (c : Thread nD τ) arg5 fullShare (stepTerm x0 x1 acc)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  rw [View.read_writes_eq_canon _ _ _ (cover64 _), View.canon_unit_zero zero2]
  sl_unfold_run_names
  simp only [View.readAt_eq_ld, harg5.read_unread, harg2.read_unread, harg3.read_unread, ld2, ld3]
  rfl

set_option maxHeartbeats 4000000 in
/-- The first key tile: the accumulator is reset to zeros, then this point's contribution is added; the output block is not touched. -/
theorem run_first (c : Dev nD) (i : grid1.Coords)
    (arg2 : Memref sig .tc .vmem S128x64x16 .f32) (harg2 : arg2.IsWhole) (arg3 : Memref sig .tc .vmem S128x64x16 .f32) (harg3 : arg3.IsWhole)
    (arg4 : Memref sig .tc .vmem S128x64 .f32) (harg4 : arg4.IsWhole) (arg5 : Memref sig .tc .vmem S128x64 .f32) (harg5 : arg5.IsWhole)
    (hc1 : condFirst i) (hc2 : ¬condLast i)
    (x0 x1 : Vec F S128x64x16 .f32) (y : Vec F S128x64 .f32) (acc : Vec F S128x64 .f32) (E : Set ℕ) (K : PUnit → sProp 𝕄) :
    iprop(owns (c : Thread nD τ) arg2 fullShare x0 ∗ owns (c : Thread nD τ) arg3 fullShare x1
        ∗ owns (c : Thread nD τ) arg4 fullShare y ∗ (∃ d, owns (c : Thread nD τ) arg5 fullShare d)
        ∗ (iprop(owns (c : Thread nD τ) arg2 fullShare x0 ∗ owns (c : Thread nD τ) arg3 fullShare x1
            ∗ owns (c : Thread nD τ) arg4 fullShare (y) ∗ owns (c : Thread nD τ) arg5 fullShare (stepTerm x0 x1 zeroAcc)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  rw [View.read_writes_eq_canon _ _ _ (fun y => ⟨_, List.mem_cons_self, View.mem_set_unit_zero zero2 inb_S128x64_S128x64_0_0 y⟩),
    View.canon_cons_unit_zero zero2]
  sl_unfold_run_names
  simp only [rc2, View.readAt_eq_ld, harg5.read_unread, harg2.read_unread, harg3.read_unread, ld2, ld3, ld2', ld3']
  rfl

set_option maxHeartbeats 4000000 in
/-- The last key tile: this point's contribution is added to the accumulator, and the accumulator minus one is written to the output block. -/
theorem run_last (c : Dev nD) (i : grid1.Coords)
    (arg2 : Memref sig .tc .vmem S128x64x16 .f32) (harg2 : arg2.IsWhole) (arg3 : Memref sig .tc .vmem S128x64x16 .f32) (harg3 : arg3.IsWhole)
    (arg4 : Memref sig .tc .vmem S128x64 .f32) (harg4 : arg4.IsWhole) (arg5 : Memref sig .tc .vmem S128x64 .f32) (harg5 : arg5.IsWhole)
    (hc1 : ¬condFirst i) (hc2 : condLast i)
    (x0 x1 : Vec F S128x64x16 .f32) (y : Vec F S128x64 .f32) (acc : Vec F S128x64 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare acc
        ∗ (iprop(owns (c : Thread nD τ) arg2 fullShare x0 ∗ owns (c : Thread nD τ) arg3 fullShare x1
            ∗ owns (c : Thread nD τ) arg4 fullShare (finish (stepTerm x0 x1 acc)) ∗ owns (c : Thread nD τ) arg5 fullShare (stepTerm x0 x1 acc)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    rw [View.read_writes_eq_canon _ _ _ (cover64 _), View.canon_unit_zero zero2]
    sl_unfold_run_names
    simp only [rc2, View.readAt_eq_ld, harg5.read_unread, harg2.read_unread, harg3.read_unread, ld2, ld3, ld2', ld3']
    rfl
  iexists _; isplitr
  swap; · iexact H5
  ipureintro
  sl_unfold_run_names
  rw [View.read_writes_eq_canon _ _ _ (cover64 _), View.canon_unit_zero zero2]
  simp only [rc2, View.readAt_eq_ld, harg5.read_unread, harg2.read_unread, harg3.read_unread, ld2, ld3, ld2', ld3']
  rfl

end Cert.KernelIdeal.Hand

end
-- ==== Proof.KI.Region1.lean ====
/-
  The pairwise region's proof data: what every staging buffer and the accumulator scratch hold point by point.

  The grid is 4 query tiles by 4 key tiles, walked key tile fastest: position n is the pair (n / 4, n % 4). The
  two input windows read the SAME array (the projected features): window 0 its query tile's rows, window 1 its key
  tile's rows. The accumulator scratch is reset at key tile 0, gains one contribution per point, and at key tile 3
  the output block receives the accumulator minus one; at the other points the output window is idle (nothing is
  stored into it and it is not written back). `accAt n` is the accumulator after position n.
-/
import proofs.«145708_j1580547970506_1_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, fetched there or not: between fetches the
    block index does not move and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid -/

/-- The reset branch is taken exactly at key tile 0. -/
theorem hcondFirst : ∀ t : Fin cfg1.N, condFirst (grid1.coords t) ↔ t.val % 4 = 0 :=
  (by decide +kernel : ∀ t : Fin grid1.N, condFirst (grid1.coords t) ↔ t.val % 4 = 0)
/-- The output branch is taken exactly at key tile 3. -/
theorem hcondLast : ∀ t : Fin cfg1.N, condLast (grid1.coords t) ↔ t.val % 4 = 3 :=
  (by decide +kernel : ∀ t : Fin grid1.N, condLast (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from key tile 3 the output window is idle and not written back. -/
theorem idleAt1_2 : ∀ t : Fin cfg1.N, ¬condLast (grid1.coords t) → cfg1.idle 2 (grid1.coords t) = true := by decide +kernel
theorem noFlush1_2 : ∀ t : Fin cfg1.N, ¬condLast (grid1.coords t) → (cfg1.win 2).flush t = false := by decide +kernel
/-- At key tile 3 it is live. -/
theorem liveAt1_2 : ∀ t : Fin cfg1.N, condLast (grid1.coords t) → cfg1.idle 2 (grid1.coords t) = false := by decide +kernel

/-! ## The accumulator, point by point -/

/-- The accumulator scratch after position `n`: at key tile 0 this point's contribution over zeros, else over what the
    point before left. -/
def accAt (c : Dev nD) : (n : ℕ) → n < cfg1.N → Vec F S128x64 .f32
  | 0, hn => stepTerm (iblk1 V c 0 ⟨0, hn⟩) (iblk1 V c 1 ⟨0, hn⟩) zeroAcc
  | n + 1, hn =>
    if (n + 1) % 4 = 0 then stepTerm (iblk1 V c 0 ⟨n + 1, hn⟩) (iblk1 V c 1 ⟨n + 1, hn⟩) zeroAcc
    else stepTerm (iblk1 V c 0 ⟨n + 1, hn⟩) (iblk1 V c 1 ⟨n + 1, hn⟩) (accAt c n (Nat.lt_of_succ_lt hn))

/-- At key tile 0 the accumulator starts afresh. -/
theorem accAt_first (c : Dev nD) (t : Fin cfg1.N) (h0 : t.val % 4 = 0) :
    accAt V c t.val t.isLt = stepTerm (iblk1 V c 0 t) (iblk1 V c 1 t) zeroAcc := by
  obtain ⟨n, hn⟩ := t
  cases n with
  | zero => rfl
  | succ n => exact (if_pos h0).trans rfl

/-- At the other key tiles it continues from the point before. -/
theorem accAt_next (c : Dev nD) (t : Fin cfg1.N) (h0 : ¬t.val % 4 = 0) :
    accAt V c t.val t.isLt = stepTerm (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The region invariant: the scoped buffers the pipeline does not stage -/

/-- The accumulator scratch as a memref. -/
abbrev scM : Memref sig .tc .vmem S128x64 .f32 := Memref.whole cc1_scratch0

/-- The other pallas_call's staging buffers, each at some contents, beside a statement `S` about the accumulator
    scratch: the scoped buffers region 1's pipeline does not stage. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The class invariant (the unstaged scoped buffers at anything, the generator register at some state) with the
    accumulator scratch singled out. -/
theorem PhiA1_eq (c : Dev nD) :
    (Pipeline.ΦA spec1 c : sProp 𝕄)
      = iprop(restWith (F := F) c (iprop(∃ d, owns (c : Thread nD τ) scM fullShare d)) ∗ (∃ r, prngReg c r)) := by
  unfold Pipeline.ΦA restWith; rw [scopedRest1_eq]; simp only [scM, owns_whole]; try rfl

/-- The invariant before position `n`: before the first point every unstaged scoped buffer at anything; afterwards
    the accumulator scratch at what the point before left. -/
def PhiS (c : Dev nD) : (n : ℕ) → n ≤ cfg1.N → sProp 𝕄
  | 0, _ => Pipeline.ΦA spec1 c
  | n + 1, hn => iprop(restWith (F := F) c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith (F := F) c (owns (c : Thread nD τ) scM fullShare (accAt V c n hn)) ∗ (∃ r, prngReg c r)) := rfl

theorem PhiS_pos (c : Dev nD) (n : ℕ) (h : n ≤ cfg1.N) (hz : n ≠ 0) :
    PhiS V c n h = iprop(restWith (F := F) c (owns (c : Thread nD τ) scM fullShare (accAt V c (n - 1) (by omega))) ∗ (∃ r, prngReg c r)) := by
  cases n with
  | zero => exact absurd rfl hz
  | succ n => rfl

/-! ## The proof data -/

/-- The proof data of the pairwise pipeline on core `c`: the arrays as the region finds them; after the body each
    input's buffer at its block, the output's at the accumulator minus one (consulted only at key tile 3); the two
    input windows hold their common array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => finish (accAt V c t.val t.isLt)
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = finish (accAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.KernelIdeal.Hand

end
-- ==== Proof.KI.Oblig1.lean ====
/-
  The pairwise region's body obligation: at every grid point the body, handed the invariant and each window's current
  staging buffer, returns them at the next point's contents. The point's position decides the case: key tile 0
  (the accumulator is reset first), key tile 3 (the output block is written), or a middle key tile.
-/
import proofs.«145708_j1580547970506_1_alg».proof.Proof.KI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the invariant hands over the accumulator scratch
    (at anything before the first point, else at what the point before left) and takes it back at this point's
    accumulator; the output's buffer comes back untouched except at key tile 3, where it holds the accumulator minus
    one. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  have hN : t.val < 16 := lt_of_lt_of_eq t.isLt (show cfg1.N = 16 from N_1)
  by_cases h0 : t.val % 4 = 0
  · have hl : ¬condLast (grid1.coords t) := fun h => by have := (hcondLast t).mp h; omega
    rw [Dat.leavesExact_idle (dat1 V c) 2 t (idleAt1_2 t hl) (noFlush1_2 t hl)]
    rw [accAt_first V c t h0]
    by_cases hz : t.val = 0
    · rw [PhiS_castSucc V c t, PhiS_zero V c _ _ hz, PhiA1_eq]
      unfold restWith
      iintro ⟨⟨⟨Ha, Hb, Hc, Hd, He, HS⟩, Hg⟩, Ho, ⟨%d0, H0⟩, ⟨%d1, H1⟩, ⟨%d2, H2⟩⟩
      iapply (run_first c (grid1.coords t) _ _ _ _ _ _ _ _ ((hcondFirst t).mpr h0) hl (iblk1 V c 0 t) (iblk1 V c 1 t) _ zeroAcc Set.univ _)
      isplitl [H0]; · iexact H0
      isplitl [H1]; · iexact H1
      isplitl [H2]; · iexact H2
      isplitl [HS]; · iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexists _; iexact H2
    · rw [PhiS_castSucc V c t, PhiS_pos V c _ _ hz]
      unfold restWith
      iintro ⟨⟨⟨Ha, Hb, Hc, Hd, He, HS⟩, Hg⟩, Ho, ⟨%d0, H0⟩, ⟨%d1, H1⟩, ⟨%d2, H2⟩⟩
      iapply (run_first c (grid1.coords t) _ _ _ _ _ _ _ _ ((hcondFirst t).mpr h0) hl (iblk1 V c 0 t) (iblk1 V c 1 t) _ zeroAcc Set.univ _)
      isplitl [H0]; · iexact H0
      isplitl [H1]; · iexact H1
      isplitl [H2]; · iexact H2
      isplitl [HS]; · iexists _; iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexists _; iexact H2
  · have hf : ¬condFirst (grid1.coords t) := fun h => h0 ((hcondFirst t).mp h)
    have hz : t.val ≠ 0 := fun e => h0 (by rw [e])
    rw [accAt_next V c t h0]
    rw [PhiS_castSucc V c t, PhiS_pos V c _ _ hz]
    unfold restWith
    by_cases h3 : t.val % 4 = 3
    · have hl : condLast (grid1.coords t) := (hcondLast t).mpr h3
      rw [show (dat1 V c).leavesExact 2 t = owns (c : Thread nD τ) (st1_2 t) fullShare ((dat1 V c).after 2 t) from by
          unfold Dat.leavesExact; rw [liveAt1_2 t hl], after1_2, accAt_next V c t h0]
      iintro ⟨⟨⟨Ha, Hb, Hc, Hd, He, HS⟩, Hg⟩, Ho, ⟨%d0, H0⟩, ⟨%d1, H1⟩, ⟨%d2, H2⟩⟩
      iapply (run_last c (grid1.coords t) _ _ _ _ _ _ _ _ hf hl (iblk1 V c 0 t) (iblk1 V c 1 t) zeroAcc _ Set.univ _)
      isplitl [H0]; · iexact H0
      isplitl [H1]; · iexact H1
      isplitl [H2]; · iexists _; iexact H2
      isplitl [HS]; · iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexact H2
    · have hl : ¬condLast (grid1.coords t) := fun h => h3 ((hcondLast t).mp h)
      rw [Dat.leavesExact_idle (dat1 V c) 2 t (idleAt1_2 t hl) (noFlush1_2 t hl)]
      iintro ⟨⟨⟨Ha, Hb, Hc, Hd, He, HS⟩, Hg⟩, Ho, ⟨%d0, H0⟩, ⟨%d1, H1⟩, ⟨%d2, H2⟩⟩
      iapply (run_middle c (grid1.coords t) _ _ _ _ _ _ _ _ hf hl (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 16 := N_1; omega
  rw [show (dat1 V c).Φ (Fin.last cfg1.N) = PhiS V c (Fin.last cfg1.N).val (Nat.le_of_lt_succ (Fin.last cfg1.N).isLt) from rfl,
    PhiS_pos V c _ _ hne, PhiA1_eq]
  unfold restWith
  iintro ⟨⟨Ha, Hb, Hc, Hd, He, HS⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS
  iexact Hg

end Cert.KernelIdeal.Hand

end
-- ==== Proof.KI.Run0.lean ====
/-
  The whole program as a run: host reshape, the matmul region, host reshape, the pairwise region, host concatenate.

  Between two items every unscoped buffer of the core is held at a known valuation: the launch memory, then each host
  stretch applied, then each region's output array replaced by what its write-backs leave. The final valuation reads
  the result buffer as the concatenation of the first argument and the pairwise region's output, and both arguments as
  launched.
-/
import proofs.«145708_j1580547970506_1_alg».proof.Proof.KI.Region0
import proofs.«145708_j1580547970506_1_alg».proof.Proof.KI.Oblig1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)
/-- After the first reshape (the matmul region's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the matmul region's exit: its output array at what the write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second reshape (the pairwise region's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the pairwise region's exit: its output array at what the write-backs leave, every other buffer as entered. -/
def W4 (c : Dev nD) : Valuation τ sig (Elt F) :=
  Function.update (W3 m ρ c) (Proc.devRef .tc main_v3) ((dat1 (E3 m ρ) c).arrAt 2 cfg1.N)
abbrev E4 : (c : Dev nD) → (b : Ref sig .tc) → Buf (Elt F) ((c : Thread nD τ).loc b) := fun c b => W4 m ρ c b
theorem W4_out (c : Dev nD) : E4 m ρ c main_v3 = (dat1 (E3 m ρ) c).arrAt 2 cfg1.N := by
  show Function.update _ _ _ _ = _; exact Function.update_self _ _ _
theorem W4_of_ne (c : Dev nD) (b : Ref sig .tc) (hb : b ≠ main_v3) : E4 m ρ c b = E3 m ρ c b := by
  show Function.update _ _ _ _ = _
  exact Function.update_of_ne (StableHlo.devRef_ne_of_ne hb) _ _
/-- After the concatenate. -/
abbrev W5 : Dev nD → Valuation τ sig (Elt F) := fun c => StableHlo.after hostOps2 (W4 m ρ c)

/-! ## The proof data family and what rides beside the buffers -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- Beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The matmul region as a segment -/

set_option backward.isDefEq.respectTransparency.types false in
/-- The matmul region: entered with every unscoped buffer at `W1`, left at `W2`. Its three arrays are distinct whole
    buffers split out of the unscoped buffers at entry and put back at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run1.lean ====
/-
  The pairwise region as a segment of the run, and the run itself.

  The pairwise region reads ONE array (the projected features) through two input windows. At entry that array's
  full share is dealt in its two halves, one per window; at exit the halves, still at the entry contents (an input
  array is never written), are joined again. The output array comes back at what the write-backs left.
-/
import proofs.«145708_j1580547970506_1_alg».proof.Proof.KI.Run0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the pairwise region's three windows: the projected features and the output. -/
theorem arrs1 : Finset.univ.image (Pipeline.arrRef (cfgs (1 : Fin 2)).spec) = {main_v2, main_v3} := by decide

/-- ENTRY: the core's unscoped buffers are the pairwise region's arrays at the entry contents — the shared input at
    one half share per window — and the rest. -/
theorem entry1 (c : Dev nD) :
    (unscopedBufs c (E3 m ρ c) : sProp 𝕄)
      ⊢ iprop((dat1 (E3 m ρ) c).arrays ((dat1 (E3 m ρ) c).arrAt · 0) ∗ Pipeline.unscopedRest spec1 c (E3 m ρ c)) := by
  rw [Pipeline.unscopedBufs_split₀ cfgs (1 : Fin 2) winFacts₀1.arr_unscoped c (E3 m ρ c)]
  refine sep_mono ?_ .rfl
  unfold Pipeline.arrBufs Dat.arrays
  rw [arrs1, bigSep_W1, bigSep_insert (by decide), bigSep_singleton,
    (arr_whole1 0).set_eq_univ, (arr_whole1 2).set_eq_univ]
  show iprop((((c : Thread nD τ).loc main_v2) ↦{fullShare} E3 m ρ c main_v2) ∗ (((c : Thread nD τ).loc main_v3) ↦{fullShare} E3 m ρ c main_v3)) ⊢ _
  iintro ⟨H2, H3⟩
  ihave Hs := (pointsTo_share (PosShare.mem_left_op_right fullShare)).1 $$ H2
  icases Hs with ⟨HL, HR⟩
  isplitl [HL]; · iexact HL
  isplitl [HR]; · iexact HR
  iexact H3

/-- EXIT: the arrays at their final contents and the rest are the core's unscoped buffers at the exit valuation. -/
theorem exit1 (c : Dev nD) :
    iprop((dat1 (E3 m ρ) c).arrays ((dat1 (E3 m ρ) c).arrAt · cfg1.N) ∗ Pipeline.unscopedRest spec1 c (E3 m ρ c))
      ⊢ (unscopedBufs c (E4 m ρ c) : sProp 𝕄) := by
  rw [Pipeline.unscopedBufs_split₀ cfgs (1 : Fin 2) winFacts₀1.arr_unscoped c (E4 m ρ c)]
  refine sep_mono ?_ (Entails.of_eq ?_)
  · unfold Pipeline.arrBufs Dat.arrays
    rw [arrs1, bigSep_W1, bigSep_insert (by decide), bigSep_singleton,
      (arr_whole1 0).set_eq_univ, (arr_whole1 2).set_eq_univ]
    beta_reduce
    rw [(dat1 (E3 m ρ) c).arrAt_in 0 rfl, (dat1 (E3 m ρ) c).arrAt_in 1 rfl, A_eq1, A_eq1,
      W4_of_ne m ρ c main_v2 (by decide), W4_out]
    show _ ⊢ iprop((((c : Thread nD τ).loc main_v2) ↦{fullShare} E3 m ρ c main_v2) ∗ (((c : Thread nD τ).loc main_v3) ↦{fullShare} (dat1 (E3 m ρ) c).arrAt 2 cfg1.N))
    iintro ⟨HL, HR, H3⟩
    isplitl [HL HR]
    · iapply (pointsTo_share (PosShare.mem_left_op_right fullShare)).2
      isplitl [HL]; · iexact HL
      iexact HR
    iexact H3
  · unfold Pipeline.unscopedRest
    exact bigSep_congr fun b hb => by
      rw [W4_of_ne m ρ c b (fun e => (Finset.mem_sdiff.mp hb).2 (by
        show b ∈ Finset.univ.image (Pipeline.arrRef (cfgs (1 : Fin 2)).spec)
        rw [arrs1, e]; decide))]

set_option backward.isDefEq.respectTransparency.types false in
/-- The pairwise region: entered with every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit : (unscopedBufs c (E3 m ρ c) : sProp 𝕄)
        ⊢ iprop((pdats m ρ 1 c).arrays ((pdats m ρ 1 c).arrAt · 0) ∗ Pipeline.unscopedRest spec1 c (E3 m ρ c)) := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m ρ) c)
    unfold Pipeline.ΦA
    iintro ⟨Hp, -, Hr⟩
    isplitl [Hr]; · iexact Hr
    iexact Hp
  hout c := by
    rw [Pipeline.ownSems0_none]
    refine BIBase.Entails.trans (hout1 (E3 m ρ) c) ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (E3 m ρ c))
        ⊢ (unscopedBufs c (E4 m ρ c) : sProp 𝕄) := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

/-- The last thread state without the owed tallies: every unscoped buffer at the last valuation, the generator
    register at some state. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- THE RUN. From any memory with zero counters every weakly fair execution of the program terminates, nothing
    faulting, and in every final memory each unscoped buffer holds the last valuation's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KI.Ends.lean ====
/-
  What the last valuation holds at the argument buffers: no host operation writes an argument and no region's
  write-back reaches one (the matmul region reads the first argument through an input window, whose array is
  never written), so each argument is read back as launched.
-/
import proofs.«145708_j1580547970506_1_alg».proof.Proof.KI.Run1
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first argument reaches the end as launched. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by
          show StableHlo.after hostOps2 (W4 m ρ c) (Proc.devRef .tc main_arg0) = _; after_results
    _ = W3 m ρ c (Proc.devRef .tc main_arg0) := W4_of_ne m ρ c main_arg0 (by decide)
    _ = W2 m ρ c (Proc.devRef .tc main_arg0) := by
          show StableHlo.after hostOps1 (W2 m ρ c) (Proc.devRef .tc main_arg0) = _; after_results
    _ = W1 m ρ c (Proc.devRef .tc main_arg0) :=
          (W2_arr m ρ c 0).trans (((dat0 (E1 m ρ) c).arrAt_in 0 rfl _).trans (A_eq0 (E1 m ρ) c 0))
    _ = W0 m ρ c (Proc.devRef .tc main_arg0) := by
          show StableHlo.after hostOps0 (W0 m ρ c) (Proc.devRef .tc main_arg0) = _; after_results
    _ = m ((c : Thread nD τ).loc main_arg0) := rfl

/-- The second argument reaches the end as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := by
          show StableHlo.after hostOps2 (W4 m ρ c) (Proc.devRef .tc main_arg1) = _; after_results
    _ = W3 m ρ c (Proc.devRef .tc main_arg1) := W4_of_ne m ρ c main_arg1 (by decide)
    _ = W2 m ρ c (Proc.devRef .tc main_arg1) := by
          show StableHlo.after hostOps1 (W2 m ρ c) (Proc.devRef .tc main_arg1) = _; after_results
    _ = W1 m ρ c (Proc.devRef .tc main_arg1) := W2_of_ne m ρ c main_arg1 (by decide)
    _ = W0 m ρ c (Proc.devRef .tc main_arg1) := by
          show StableHlo.after hostOps0 (W0 m ρ c) (Proc.devRef .tc main_arg1) = _; after_results
    _ = m ((c : Thread nD τ).loc main_arg1) := rfl

/-- THE FRAME: every weakly fair execution terminates, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
      (h c _ (mem_uc main_arg1 (by decide))).trans (W5_main_arg1 m ρ c)⟩) (run m ρ)

end Cert.KernelIdeal.Hand

end
-- ==== Proof.SpecMM.lean ====
/- The specification both programs' first stage is compared with: the product of a 512×512 matrix by a
   512×1024 matrix over the extended reals, entry (r, c) being the sum over k of a(r, k) · b(k, c). The shapes
   are written as literals so that this module depends on neither program. -/
import Idealize.ShloMosaic.Lib.ValueIdx
import Idealize.ShloMosaic.PureOps.Ideal

noncomputable section

open scoped BigOperators

namespace Cert.Spec

open Idealize.ShloMosaic Idealize.ShloMosaic.ValueIdx

/-- The matrix product, entry by entry. The row and column of the entry are re-packed as literal
    Fin 512 and Fin 1024 so that every index on the right is built from coordinates of literal type. -/
def MM (a : FVec Ideal ⟨2, ![512, 512]⟩ .f32) (b : FVec Ideal ⟨2, ![512, 1024]⟩ .f32) : FVec Ideal ⟨2, ![512, 1024]⟩ .f32 :=
  fun i => ∑ k : Fin 512, a (ix2 (⟨(i 0).val, idx2_lt0 i⟩ : Fin 512) k) * b (ix2 k (⟨(i 1).val, idx2_lt1 i⟩ : Fin 1024))

/-- The entry at an index of any spelling. -/
theorem MM_apply (a : FVec Ideal ⟨2, ![512, 512]⟩ .f32) (b : FVec Ideal ⟨2, ![512, 1024]⟩ .f32) (i : (⟨2, ![512, 1024]⟩ : Shape).Idx) :
    MM a b i = ∑ k : Fin 512, a (ix2 (⟨(i 0).val, idx2_lt0 i⟩ : Fin 512) k) * b (ix2 k (⟨(i 1).val, idx2_lt1 i⟩ : Fin 1024)) := rfl

/-- The entry at row r and column c. -/
theorem MM_ix2 (a : FVec Ideal ⟨2, ![512, 512]⟩ .f32) (b : FVec Ideal ⟨2, ![512, 1024]⟩ .f32) (r : Fin 512) (c : Fin 1024) :
    MM a b (ix2 r c) = ∑ k : Fin 512, a (ix2 r k) * b (ix2 k c) := rfl

end Cert.Spec

end
-- ==== Proof.Final0.lean ====
/- The value of the first TensorCore call at the extended reals: after its four grid points the output array
   holds the matrix product of the two arrays the call was entered with. First the body's stored value at one
   entry of a block (a sum of 512 products, the narrowing format changes and the same-shape cast being the
   identity there), then the same entry of the specification, then the four blocks of 128 rows put back
   together into the whole 512×1024 array. -/
import proofs.«145708_j1580547970506_1_alg».proof.Proof.KI.Region0
import proofs.«145708_j1580547970506_1_alg».proof.Proof.SpecMM
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The operand indices of the product

The dimension numbers contract axis 1 of the left operand with axis 0 of the right one and keep the left rows and
the right columns. So at output entry i and contraction index q the left operand is read at (row of i, q) and the
right operand at (q, column of i). -/

/-- The left operand's row is the output's row. -/
theorem lhs_row (i : S128x1024.Idx) (q : dot_S128x512_S512x1024_S128x1024_1_0_0_1_n_n.contr.Idx) :
    (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide),
    dif_pos (show (0 : Fin S128x512.rank) ∈ dot_S128x512_S512x1024_S128x1024_1_0_0_1_n_n.lhsNonContracting by decide)]
  rfl
/-- The left operand's column is the contraction coordinate. -/
theorem lhs_col (i : S128x1024.Idx) (q : dot_S128x512_S512x1024_S128x1024_1_0_0_1_n_n.contr.Idx) :
    (dot_S128x512_S512x1024_S128x1024_1_0_0_1_n_n.lhsIdx i q 1).val = (q ⟨0, by decide⟩).val :=
  dot_S128x512_S512x1024_S128x1024_1_0_0_1_n_n.lhsIdx_val_of_single rfl i q
/-- The right operand's row is the contraction coordinate. -/
theorem rhs_row (i : S128x1024.Idx) (q : dot_S128x512_S512x1024_S128x1024_1_0_0_1_n_n.contr.Idx) :
    (dot_S128x512_S512x1024_S128x1024_1_0_0_1_n_n.rhsIdx i q 0).val = (q ⟨0, by decide⟩).val :=
  dot_S128x512_S512x1024_S128x1024_1_0_0_1_n_n.rhsIdx_val_of_single rfl i q
/-- The right operand's column is the output's column. -/
theorem rhs_col (i : S128x1024.Idx) (q : dot_S128x512_S512x1024_S128x1024_1_0_0_1_n_n.contr.Idx) :
    (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide),
    dif_pos (show (1 : Fin S512x1024.rank) ∈ dot_S128x512_S512x1024_S128x1024_1_0_0_1_n_n.rhsNonContracting by decide)]
  rfl

/-- THE STORED VALUE AT AN ENTRY. At the extended reals the body's payload at (p, q) is the sum over k of
    x0 (p, k) · x1 (k, q): the product accumulates into the zero splat, so it is the bare sum over the contraction
    index; that index is re-labelled by its one coordinate k : Fin 512; rounding to the narrow format does nothing to
    an extended real, and a cast to the same shape is the identity. -/
theorem pay_apply (x0 : Vec Ideal S128x512 .f32) (x1 : Vec Ideal S512x1024 .f32) (p : Fin 128) (q : Fin 1024) :
    k0_pay1 (F := Ideal) x0 x1 (ix2 p q) = ∑ k : Fin 512, x0 (ix2 p k) * x1 (ix2 k q) := by
  unfold k0_pay1
  refine (Ideal.matmul_constant_zero_apply dot_S128x512_S512x1024_S128x1024_1_0_0_1_n_n none (truncf .bf16 x0 bitsLt_bf16_f32)
    (truncf .bf16 (shapeCast S512x1024 x1 shapeCasts_S512x1024_S512x1024) bitsLt_bf16_f32) (ix2 p q)).trans ?_
  rw [← Equiv.sum_comp (contrEquiv1 dot_S128x512_S512x1024_S128x1024_1_0_0_1_n_n 512 rfl rfl).symm]
  refine Finset.sum_congr rfl fun k _ => ?_
  have hk := contrEquiv1_symm_val dot_S128x512_S512x1024_S128x1024_1_0_0_1_n_n 512 rfl rfl k
  have el : dot_S128x512_S512x1024_S128x1024_1_0_0_1_n_n.lhsIdx (ix2 p q) ((contrEquiv1 dot_S128x512_S512x1024_S128x1024_1_0_0_1_n_n 512 rfl rfl).symm k) = ix2 p k := funext fun a => Fin.ext (by
    match a with
    | ⟨0, _⟩ => exact lhs_row _ _
    | ⟨1, _⟩ => exact (lhs_col _ _).trans hk)
  have er : dot_S128x512_S512x1024_S128x1024_1_0_0_1_n_n.rhsIdx (ix2 p q) ((contrEquiv1 dot_S128x512_S512x1024_S128x1024_1_0_0_1_n_n 512 rfl rfl).symm k) = ix2 k q := funext fun a => Fin.ext (by
    match a with
    | ⟨0, _⟩ => exact (rhs_row _ _).trans hk
    | ⟨1, _⟩ => exact rhs_col _ _)
  rw [el, er, shapeCast_self]
  rfl

/-! ## The body's value against the specification, at one entry -/

/-- The stored value against the specification. Let x0 be the band of A of 128 rows starting at row n · 128
    (h0), and x1 all of B (h1). Then the payload at block entry j is the specification's entry i, whenever i is j
    moved down by n · 128 rows (hi0, hi1): both are the same sum of 512 products, term by term. -/
theorem pay_eq_MM (A : FVec Ideal S512x512 .f32) (B : FVec Ideal S512x1024 .f32)
    (x0 : Vec Ideal S128x512 .f32) (x1 : Vec Ideal S512x1024 .f32) (n : ℕ)
    (h0 : ∀ (p : Fin 128) (k : Fin 512) (hp : n * 128 + p.val < 512), x0 (ix2 p k) = A (ix2 (⟨n * 128 + p.val, hp⟩ : Fin 512) k))
    (h1 : ∀ (k : Fin 512) (q : Fin 1024), x1 (ix2 k q) = B (ix2 k q))
    (j : S128x1024.Idx) (i : S512x1024.Idx) (hi0 : (i 0).val = n * 128 + (j 0).val) (hi1 : (i 1).val = (j 1).val) :
    k0_pay1 (F := Ideal) x0 x1 j = Cert.Spec.MM A B i := by
  obtain ⟨p, q, rfl⟩ : ∃ (p : Fin 128) (q : Fin 1024), j = ix2 p q := ⟨j 0, j 1, eq_ix2 j⟩
  have hp : n * 128 + p.val < 512 := by
    have h := idx2_lt0 i
    have e : (i 0).val = n * 128 + p.val := hi0
    omega
  have e0 : (⟨n * 128 + p.val, hp⟩ : Fin 512) = ⟨(i 0).val, idx2_lt0 i⟩ := Fin.ext hi0.symm
  have e1 : q = ⟨(i 1).val, idx2_lt1 i⟩ := Fin.ext hi1.symm
  rw [pay_apply, Cert.Spec.MM_apply]
  refine Finset.sum_congr rfl fun k _ => ?_
  rw [h0 p k hp, h1 k q, e0, ← e1]

/-! ## The windows' block indices over the grid -/

/-- The zero offsets, however spelt. -/
theorem hz : (![0, 0] : Fin 2 → Nat) = fun _ => 0 := funext fun a => by fin_cases a <;> rfl

/-- Decided over the four grid points: the left window and the output window are at block row t (block column
    0), the right window stays at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 4 :=
  (by decide +kernel : ∀ t : Fin grid0.N, _)

-- the buffer contents of the TensorCore at the moment the call starts
variable (V : (c : Dev nD) → (b : Ref sig .tc) → Buf (Elt Ideal) ((c : Thread nD τ).loc b))

/-- WHAT POINT t WRITES BACK is block t of the matrix product of the two entry arrays. The body's one store is
    its payload of the two loaded blocks; the left block is the band of rows t · 128 … t · 128 + 127 of the left array
    and the right block is the whole right array (an element of a block sits at block index × block size + its own
    coordinate, on each axis), and the output block sits at the same band of rows. -/
theorem flushed_eq (c : Dev nD) (t : Fin cfg0.N) :
    (dat0 (F := Ideal) V c).flushed 2 t = ((cfg0.win 2).blk t).view.read (Elt Ideal) (Cert.Spec.MM (V c main_arg0) (V c main_v0)) := by
  show (cfg0.win 2).cut (grid0.coords t) ((dat0 V c).after 2 t) = _
  rw [after0_2]
  unfold out0_2
  rw [View.canon_unit_zero hz]
  simp only [View.ld_unit_zero (S := S128x512) hz, View.ld_unit_zero (S := S512x1024) hz]
  obtain ⟨e0, e1, e2, e3, e4, e5, e6⟩ := idx_facts t
  funext j
  show k0_pay1 (F := Ideal) (iblk0 V c 0 t) (iblk0 V c 1 t) j = Cert.Spec.MM (V c main_arg0) (V c main_v0) (((cfg0.win 2).blk t).view.emb j)
  refine pay_eq_MM (V c main_arg0) (V c main_v0) (iblk0 V c 0 t) (iblk0 V c 1 t) t.val ?_ ?_ j (((cfg0.win 2).blk t).view.emb j) ?_ ?_
  · intro p k hp
    show V c main_arg0 (((cfg0.win 0).blk t).view.emb (ix2 p k)) = V c main_arg0 (ix2 (⟨t.val * 128 + p.val, hp⟩ : Fin 512) k)
    refine congrArg (V c main_arg0) (funext fun a => Fin.ext ?_)
    match a with
    | ⟨0, _⟩ => show win0_0.index t (0 : Fin 2) * 128 + 1 * p.val = t.val * 128 + p.val; omega
    | ⟨1, _⟩ => show win0_0.index t (1 : Fin 2) * 512 + 1 * k.val = k.val; omega
  · intro k q
    show V c main_v0 (((cfg0.win 1).blk t).view.emb (ix2 k q)) = V c main_v0 (ix2 k q)
    refine congrArg (V c main_v0) (funext fun a => Fin.ext ?_)
    match a with
    | ⟨0, _⟩ => show win0_1.index t (0 : Fin 2) * 512 + 1 * k.val = k.val; omega
    | ⟨1, _⟩ => show win0_1.index t (1 : Fin 2) * 1024 + 1 * q.val = q.val; omega
  · show win0_2.index t (0 : Fin 2) * 128 + 1 * (j 0).val = t.val * 128 + (j 0).val; omega
  · show win0_2.index t (1 : Fin 2) * 1024 + 1 * (j 1).val = (j 1).val; omega

/-- An index of the output array lies in point t's block iff, on each axis, its coordinate lies in the block's range. -/
theorem mem_blk (t : Fin cfg0.N) (i : S512x1024.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v1).slice (win0_2.rect t)).set ↔ _
  rw [View.set_slice_whole, Rect.mem_set_unit]
  exact Iff.rfl

/-- Every index of the output array is in some point's block: row r is in the block of point r / 128, and each
    block spans all 1024 columns. Every point writes its block back. -/
theorem cover (i : S512x1024.Idx) : ∃ t : Fin cfg0.N, (cfg0.win 2).flush t = true ∧ i ∈ ((cfg0.win 2).blk t).view.set := by
  have hi0 : (i 0).val < 512 := (i 0).isLt
  have hi1 : (i 1).val < 1024 := (i 1).isLt
  obtain ⟨t, ht⟩ : ∃ t : Fin cfg0.N, t.val = (i 0).val / 128 :=
    ⟨⟨(i 0).val / 128, by show (i 0).val / 128 < grid0.N; rw [N_0]; omega⟩, rfl⟩
  obtain ⟨e0, e1, e2, e3, e4, e5, e6⟩ := idx_facts t
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1024 ≤ (i 1).val ∧ (i 1).val < win0_2.index t (1 : Fin 2) * 1024 + 1024; omega

/-- THE OUTPUT ARRAY AFTER THE CALL is the matrix product of the arrays the call found: every point writes a
    block of that one function and the blocks cover the array. -/
theorem final0 (c : Dev nD) : (dat0 (F := Ideal) V c).arrAt 2 cfg0.N = Cert.Spec.MM (V c main_arg0) (V c main_v0) :=
  (dat0 (F := Ideal) V c).arrAt_eq_of_cover 2 (Cert.Spec.MM (V c main_arg0) (V c main_v0)) (fun t _ => flushed_eq V c t) cover

end Cert.KernelIdeal.HandValue

end
-- ==== Proof.Spec.lean ====
/-
  The specification of the pairwise stage.

  From an array m : [512, 64, 16] (512 samples, 64 features, 16 kernel dimensions) the pairwise stage forms, for
  every sample i and feature f,

      o(i, f) = ( Σ_{a < 512} exp( 0 − Σ_{k < 16} | m(i, f, k) − m(a, f, k) | ) ) − 1,

  the sum over ALL samples a (a = i included, which contributes exp 0 = 1: hence the final −1) of the exponential
  of minus the L1 distance between the two samples' rows of feature f. Everything is on the extended reals: the
  absolute value is max v (−v), the negation is written 0 − v (the form a kernel spells it in; on the extended
  reals 0 − v = −v), the literal one is kept as the word it is printed as and is never evaluated.
-/
import proofs.«145708_j1580547970506_1_alg».proof.KernelIdeal
import proofs.«145708_j1580547970506_1_alg».proof.Proof.SpecMM
import Idealize.ShloMosaic.Lib.ValueIdx
import Idealize.ShloMosaic.PureOps.Ideal

noncomputable section

open scoped BigOperators

namespace Cert.Spec

open Idealize.ShloMosaic Idealize.ShloMosaic.ValueIdx Cert.KernelIdeal

/-- The absolute value on the extended reals, as the float operations mean it there: the larger of v and −v. -/
def absE (v : EReal) : EReal := max v (-v)

theorem absE_def (v : EReal) : absE v = max v (-v) := rfl

/-- The float absolute value at the ideal instance is `absE`. -/
theorem absf_eq_absE {φ : FTy} (v : Ideal φ) : FloatOps.absf (F := Ideal) v = absE v := rfl

/-- The literal 1.0 both programs subtract at the end, as the word it is printed as. -/
def one32 : EReal := Ideal.ofBits .f32 0x3F800000#32

/-- One term of the pairwise sum: exp of minus the L1 distance, over the 16 kernel dimensions, between row (i, f) and
    row (a, f) of m. -/
def term (m : FVec Ideal S512x64x16 .f32) (i a : Fin 512) (f : Fin 64) : EReal :=
  Ideal.exp (0 - ∑ k : Fin 16, absE (m (ix3 i f k) - m (ix3 a f k)))

/-- The pairwise stage: o(i, f) = (Σ_a term m i a f) − 1. -/
def PW (m : FVec Ideal S512x64x16 .f32) : FVec Ideal S512x64 .f32 :=
  fun j => (∑ a : Fin 512, term m (j 0) a (j 1)) - one32

/-- The pairwise stage read at (i, f). -/
theorem PW_apply (m : FVec Ideal S512x64x16 .f32) (i : Fin 512) (f : Fin 64) :
    PW m (ix2 i f)
      = (∑ a : Fin 512, Ideal.exp (0 - ∑ k : Fin 16, absE (m (ix3 i f k) - m (ix3 a f k)))) - one32 := rfl

/-! ## The whole result

Both programs reshape T : [512, 64, 16] to [512, 1024], multiply x : [512, 512] by it, reshape the product to
[512, 64, 16], apply the pairwise stage, and join x with the outcome along the columns. The two reshapes and the join are
the same operations in both programs and are carried here as they are printed; only the product and the pairwise stage
are specified entry by entry. -/

section Whole
variable [Cert.KernelIdeal.Facts]
open Cert.KernelIdeal.Facts₀

/-- The projected array m = reshape (x · reshape T). -/
def proj (x : FVec Ideal S512x512 .f32) (T : FVec Ideal S512x64x16 .f32) : FVec Ideal S512x64x16 .f32 :=
  shapeCast S512x64x16 (MM x (shapeCast S512x1024 T shapeCasts_S512x64x16_S512x1024)) shapeCasts_S512x1024_S512x64x16

/-- The result of both programs: x joined, along the columns, with the pairwise stage of the projected array. -/
def G (x : FVec Ideal S512x512 .f32) (T : FVec Ideal S512x64x16 .f32) : FVec Ideal S512x576 .f32 :=
  concatenate S512x576 1 [⟨S512x512, x⟩, ⟨S512x64, PW (proj x T)⟩] concatenates_S512x512_S512x64_S512x576_d1

theorem G_def (x : FVec Ideal S512x512 .f32) (T : FVec Ideal S512x64x16 .f32) :
    G x T = concatenate S512x576 1 [⟨S512x512, x⟩, ⟨S512x64, PW (shapeCast S512x64x16
      (MM x (shapeCast S512x1024 T shapeCasts_S512x64x16_S512x1024)) shapeCasts_S512x1024_S512x64x16)⟩]
      concatenates_S512x512_S512x64_S512x576_d1 := rfl

end Whole

end Cert.Spec

end
-- ==== Proof.SumLaw.lean ====
/-
  Two rearrangements of finite sums, in any commutative additive monoid (the extended reals are one: only
  commutativity and associativity of + are used, so nothing here asks for finiteness).

  (1) A sum over 512 indices is the sum over 4 tiles of the sums over the 128 indices of each tile, index a of tile t
      at position r being a = 128 · t + r.
  (2) A sum accumulated one term at a time from zero, ((…((0 + t₀) + t₁) + …) + tₙ₋₁), is the sum of the terms; stated
      for 16 terms (the kernel dimensions of one distance) and for 4 terms (the key tiles of one query tile).
-/
import Mathlib.Algebra.BigOperators.Fin
import Mathlib.Logic.Equiv.Fin.Basic
import Mathlib.Data.Fintype.BigOperators

open scoped BigOperators

namespace Cert.SumLaw

variable {M : Type*} [AddCommMonoid M]

/-- Index r of tile t, as an index below 512. -/
def tileIdx (t : Fin 4) (r : Fin 128) : Fin 512 := ⟨128 * t.val + r.val, by omega⟩

theorem tileIdx_val (t : Fin 4) (r : Fin 128) : (tileIdx t r).val = 128 * t.val + r.val := rfl

/-- The pairs (tile, position in the tile) are the indices below 512. -/
def tileEquiv : Fin 4 × Fin 128 ≃ Fin 512 where
  toFun p := tileIdx p.1 p.2
  invFun a := (⟨a.val / 128, by omega⟩, ⟨a.val % 128, by omega⟩)
  left_inv p := by
    obtain ⟨t, r⟩ := p
    refine Prod.ext (Fin.ext ?_) (Fin.ext ?_)
    · show (128 * t.val + r.val) / 128 = t.val
      omega
    · show (128 * t.val + r.val) % 128 = r.val
      omega
  right_inv a := Fin.ext (by
    show 128 * (a.val / 128) + a.val % 128 = a.val
    omega)

/-- (1) A sum over 512 indices, tile by tile. -/
theorem sum_tiles (g : Fin 512 → M) : ∑ a : Fin 512, g a = ∑ t : Fin 4, ∑ r : Fin 128, g (tileIdx t r) := by
  rw [← Equiv.sum_comp tileEquiv g, Fintype.sum_prod_type]
  rfl

/-- (2) Four terms accumulated from zero. -/
theorem leftNested4 (s : Fin 4 → M) :
    (((0 + s ⟨0, by omega⟩) + s ⟨1, by omega⟩) + s ⟨2, by omega⟩) + s ⟨3, by omega⟩ = ∑ t : Fin 4, s t := by
  rw [Fin.sum_univ_four, zero_add]
  rfl

/-- (2) Sixteen terms accumulated from zero. -/
theorem leftNested16 (t : Fin 16 → M) :
    (((((((((((((((0 + t ⟨0, by omega⟩) + t ⟨1, by omega⟩) + t ⟨2, by omega⟩) + t ⟨3, by omega⟩) + t ⟨4, by omega⟩)
      + t ⟨5, by omega⟩) + t ⟨6, by omega⟩) + t ⟨7, by omega⟩) + t ⟨8, by omega⟩) + t ⟨9, by omega⟩) + t ⟨10, by omega⟩)
      + t ⟨11, by omega⟩) + t ⟨12, by omega⟩) + t ⟨13, by omega⟩) + t ⟨14, by omega⟩) + t ⟨15, by omega⟩
      = ∑ d : Fin 16, t d := by
  rw [zero_add]
  simp only [Fin.sum_univ_castSucc, Fin.sum_univ_zero, zero_add]
  rfl

/-- The kernel's whole accumulation: four tile sums added one at a time from zero give the sum over all 512. -/
theorem accumulate_tiles (g : Fin 512 → M) :
    (((0 + ∑ r : Fin 128, g (tileIdx ⟨0, by omega⟩ r)) + ∑ r : Fin 128, g (tileIdx ⟨1, by omega⟩ r))
      + ∑ r : Fin 128, g (tileIdx ⟨2, by omega⟩ r)) + ∑ r : Fin 128, g (tileIdx ⟨3, by omega⟩ r)
      = ∑ a : Fin 512, g a := by
  rw [sum_tiles g]
  exact leftNested4 fun t => ∑ r : Fin 128, g (tileIdx t r)

end Cert.SumLaw
-- ==== Proof.LibMiddleAxis.lean ====
/-
  The middle axis of a rank-3 array.

  Two readings at an index given by coordinates. (1) Summing an [a, b, c] array over its middle axis leaves an [a, c]
  matrix whose entry (i, l) is the sum over the b middle coordinates d of the entries (i, d, l). (2) Regrouping the two
  inner axes of an [a, b₂, c] array as [a, b, c₂] (with b₂ · c = b · c₂) keeps every entry at its row-major position: inside
  row n, the entry at inner position d · c + e of the source is the entry at inner position d' · c₂ + l of the result.
-/
import Idealize.ShloMosaic.PureOps.Ideal.Laws
import Idealize.ShloMosaic.Lib.ValueIdx
import Idealize.ShloMosaic.Lib.Pipeline.Value

open scoped BigOperators

namespace Idealize.ShloMosaic.ValueIdx

open Idealize.ShloMosaic

/-- Inserting coordinate `k` on axis 1 over the matrix index `(i, l)` gives the rank-3 index `(i, k, l)`. -/
theorem reduces_middle_lift {a b c : ℕ} (h : (⟨3, ![a, b, c]⟩ : Shape).Reduces [1] ⟨2, ![a, c]⟩) (i : Fin a) (l : Fin c)
    (k : Fin b) : h.lift (ix2 i l) k = ix3 i k l := by
  funext ax; apply Fin.ext
  show h.liftVal (ix2 i l) k.val ax = (ix3 i k l ax).val
  unfold Shape.Reduces.liftVal
  match ax with
  | ⟨0, _⟩ => rfl
  | ⟨1, _⟩ => rfl
  | ⟨2, _⟩ => rfl

/-- The sum of an `[a, b, c]` array over axis 1, at the exact extended reals, read at `(i, l)`: `∑ d, src (i, d, l)`. -/
theorem multiReduction_add_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (l : Fin c) :
    multiReduction .add [1] ⟨2, ![a, c]⟩ src acc h hφ hacc (ix2 i l) = ∑ d : Fin b, src (ix3 i d l) := by
  refine (Ideal.multiReduction_add_single src acc h hφ hacc (ix2 i l)).trans ?_
  exact Finset.sum_congr rfl fun d _ => congrArg src (reduces_middle_lift h i l d)

variable {α : Type}

/-- An `[a, b₂, c]` array regrouped as `[a, b, c₂]` reads, at `(n, d', l)`, the operand at `(n, d, e)` whenever the two
    inner positions agree, `d · c + e = d' · c₂ + l`. -/
theorem shapeCast_regroup_inner_apply {a b₂ c b c₂ : ℕ} (x : (⟨3, ![a, b₂, c]⟩ : Shape).Idx → α)
    (h : (⟨3, ![a, b₂, c]⟩ : Shape).ShapeCasts ⟨3, ![a, b, c₂]⟩) (hbc : b₂ * c = b * c₂)
    (n : Fin a) (d : Fin b₂) (e : Fin c) (d' : Fin b) (l : Fin c₂) (hk : d.val * c + e.val = d'.val * c₂ + l.val) :
    shapeCast ⟨3, ![a, b, c₂]⟩ x h (ix3 n d' l) = x (ix3 n d e) :=
  shapeCast_apply x h _ _ (by
    rw [Shape.rowMajor_val_three, Shape.rowMajor_val_three]
    show (n.val * b₂ + d.val) * c + e.val = (n.val * b + d'.val) * c₂ + l.val
    have e1 : (n.val * b₂ + d.val) * c + e.val = n.val * (b₂ * c) + (d.val * c + e.val) := by ring
    rw [e1, hbc, hk]; ring)

end Idealize.ShloMosaic.ValueIdx
-- ==== Proof.LibUnitAxes3.lean ====
import Idealize.ShloMosaic.Lib.Pipeline.Value
import Idealize.ShloMosaic.Lib.ValueIdx

/-!
# Rank-3 arrays with unit axes, read at an index given by coordinates

A matrix `[a, b]` viewed as `[a, 1, b]` (a middle unit axis inserted), a row `[1, b]` viewed as `[1, 1, b]`, and the
three broadcasts of a rank-3 array with one or two unit axes to the full `[a, b, c]`: each reads, at `(i, j, k)`,
the operand at the index that keeps the coordinates on the operand's proper axes and is `0` on its unit axes.
These are the forms an outer sum `s[:, None, :] + p[None, :, :] + bias[None, :, :]` is spelt with.
-/

namespace Idealize.ShloMosaic.ValueIdx

open Idealize.ShloMosaic

variable {α : Type}

/-- An `[a, b]` array cast to `[a, 1, b]` reads, at `(i, u, j)`, the operand at `(i, j)`, whatever the unit
    coordinate `u`: both sit at row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b]` row cast to `[1, 1, b]` reads, at `(u, w, j)`, the operand at `(0, j)`. -/
theorem shapeCast_1b_11b_apply {b : ℕ} (x : (⟨2, ![1, b]⟩ : Shape).Idx → α)
    (h : (⟨2, ![1, b]⟩ : Shape).ShapeCasts ⟨3, ![1, 1, b]⟩) (u w : Fin 1) (j : Fin b) :
    shapeCast ⟨3, ![1, 1, b]⟩ x h (ix3 u w j) = x (ix2 (0 : Fin 1) j) :=
  shapeCast_apply x h _ _ (by
    have hu : u.val = 0 := by omega
    have hw : w.val = 0 := by omega
    rw [Shape.rowMajor_val_three, Shape.rowMajor_val_two]
    show 0 * b + j.val = (u.val * 1 + w.val) * b + j.val
    rw [hu, hw])

/-- An `[a, 1, c]` array broadcast to `[a, b, c]` reads, at `(i, j, k)`, the operand at `(i, 0, k)`: every `j` sees
    the same slab. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees
    the same matrix. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` row broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Idealize.ShloMosaic.ValueIdx
-- ==== Proof.Pay1.lean ====
/-
  One grid point of the pairwise kernel, read entry by entry on the extended reals.

  The body cuts the query block q and the key block k ([128, 64, 16] each) into their 16 kernel-dimension planes;
  plane d of q is laid along the key axis, plane d of k along the query axis, and |q(p, f, d) − k(r, f, d)| is added
  into a [128, 128, 64] array that starts at zero. Then exp(0 − ·) is applied and the key axis is summed. So the new
  accumulator at (p, f) is the old one plus Σ_r exp(0 − Σ_d |q(p, f, d) − k(r, f, d)|). The reset is zero everywhere
  and the final block is the accumulator minus the literal one.
-/
import proofs.«145708_j1580547970506_1_alg».proof.Proof.KI.Step
import proofs.«145708_j1580547970506_1_alg».proof.Proof.Spec
import proofs.«145708_j1580547970506_1_alg».proof.Proof.SumLaw
import proofs.«145708_j1580547970506_1_alg».proof.Proof.LibMiddleAxis
import proofs.«145708_j1580547970506_1_alg».proof.Proof.LibUnitAxes3
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandValue

open Idealize.ShloMosaic Idealize.ShloMosaic.ValueIdx Cert.KernelIdeal Cert.KernelIdeal.Gen Cert.Spec

/-! ## One plane of the distance -/

/-- Plane `d` of a [128, 64, 16] block (a slice of width one along the last axis, at offset `d`) read at (p, f, 0). -/
theorem plane_apply (d : Nat) (hd : d < 16) (x : FVec Ideal S128x64x16 .f32)
    (hs : S128x64x16.Slices ![0, 0, d] S128x64x1) (p : Fin 128) (f : Fin 64) (u : Fin 1) :
    extractStridedSlice S128x64x1 ![0, 0, d] x hs (ix3 p f u) = x (ix3 p f (⟨d, hd⟩ : Fin 16)) :=
  extractStridedSlice_apply _ x hs _ _ (fun ax => by
    match ax with
    | ⟨0, _⟩ => exact (Nat.zero_add _).symm
    | ⟨1, _⟩ => exact (Nat.zero_add _).symm
    | ⟨2, _⟩ =>
      have hu : u.val = 0 := by omega
      show d = d + u.val
      omega)

/-- A [128, 64, 1] plane viewed as the matrix [128, 64] reads, at (p, f), the plane at (p, f, 0). -/
theorem squeeze_apply (v : FVec Ideal S128x64x1 .f32) (h : S128x64x1.ShapeCasts S128x64) (p : Fin 128) (f : Fin 64) :
    shapeCast S128x64 v h (ix2 p f) = v (ix3 p f (0 : Fin 1)) :=
  shapeCast_apply v h _ _ (by
    rw [Shape.rowMajor_val_three, Shape.rowMajor_val_two]
    show (p.val * 64 + f.val) * 1 + 0 = p.val * 64 + f.val
    omega)

/-- The array of |q(p, f, d) − k(r, f, d)| over (p, r, f), as the body spells it from the two blocks: each block's plane
    `d`, the query's laid along the key axis and the key's along the query axis, subtracted, in absolute value. -/
def layer (off : Fin 3 → Nat) (hs : S128x64x16.Slices off S128x64x1) (q k : FVec Ideal S128x64x16 .f32) :
    FVec Ideal S128x128x64 .f32 :=
  absf (subf
    (broadcastTo S128x128x64 (shapeCast S128x1x64 (shapeCast S128x64 (extractStridedSlice S128x64x1 off q hs)
      shapeCasts_S128x64x1_S128x64) shapeCasts_S128x64_S128x1x64) broadcasts_S128x1x64_S128x128x64)
    (broadcastTo S128x128x64 (shapeCast S1x128x64 (shapeCast S128x64 (extractStridedSlice S128x64x1 off k hs)
      shapeCasts_S128x64x1_S128x64) shapeCasts_S128x64_S1x128x64) broadcasts_S1x128x64_S128x128x64))

/-- Plane `d`'s array at (p, r, f) is |q(p, f, d) − k(r, f, d)|. -/
theorem layer_apply (d : Nat) (hd : d < 16) (hs : S128x64x16.Slices ![0, 0, d] S128x64x1)
    (q k : FVec Ideal S128x64x16 .f32) (p r : Fin 128) (f : Fin 64) :
    layer ![0, 0, d] hs q k (ix3 p r f) = absE (q (ix3 p f (⟨d, hd⟩ : Fin 16)) - k (ix3 r f (⟨d, hd⟩ : Fin 16))) := by
  unfold layer
  show absE (broadcastTo S128x128x64 _ broadcasts_S128x1x64_S128x128x64 (ix3 p r f)
      - broadcastTo S128x128x64 _ broadcasts_S1x128x64_S128x128x64 (ix3 p r f)) = _
  rw [broadcastTo_a1c_abc_apply, broadcastTo_1bc_abc_apply, shapeCast_ab_a1b_apply, shapeCast_ab_1ab_apply,
    squeeze_apply, squeeze_apply, plane_apply d hd, plane_apply d hd]

/-! ## The three payloads -/

/-- The accumulator's reset is zero everywhere. -/
theorem zeroAcc_apply (p : Fin 128) (f : Fin 64) : Hand.zeroAcc (F := Ideal) (ix2 p f) = 0 := by
  unfold Hand.zeroAcc k1_pay3
  rw [shapeCast_self]
  exact Ideal.ofBits_zero_f32

/-- The output block is the accumulator minus the literal one. -/
theorem finish_apply (acc : Vec Ideal S128x64 .f32) (p : Fin 128) (f : Fin 64) :
    Hand.finish acc (ix2 p f) = acc (ix2 p f) - one32 := rfl

/-- The sixteen planes accumulated from the zero splat, at (p, r, f): the L1 distance between row (p, f) of the query
    block and row (r, f) of the key block. -/
theorem planes_sum (q k : FVec Ideal S128x64x16 .f32) (p r : Fin 128) (f : Fin 64) :
    ((((((((((((((((Ideal.ofBits .f32 0x00000000#32 + layer ![0, 0, 0] slices_S128x64x16_o0_0_0_S128x64x1 q k (ix3 p r f)) + layer ![0, 0, 1] slices_S128x64x16_o0_0_1_S128x64x1 q k (ix3 p r f)) + layer ![0, 0, 2] slices_S128x64x16_o0_0_2_S128x64x1 q k (ix3 p r f)) + layer ![0, 0, 3] slices_S128x64x16_o0_0_3_S128x64x1 q k (ix3 p r f)) + layer ![0, 0, 4] slices_S128x64x16_o0_0_4_S128x64x1 q k (ix3 p r f)) + layer ![0, 0, 5] slices_S128x64x16_o0_0_5_S128x64x1 q k (ix3 p r f)) + layer ![0, 0, 6] slices_S128x64x16_o0_0_6_S128x64x1 q k (ix3 p r f)) + layer ![0, 0, 7] slices_S128x64x16_o0_0_7_S128x64x1 q k (ix3 p r f)) + layer ![0, 0, 8] slices_S128x64x16_o0_0_8_S128x64x1 q k (ix3 p r f)) + layer ![0, 0, 9] slices_S128x64x16_o0_0_9_S128x64x1 q k (ix3 p r f)) + layer ![0, 0, 10] slices_S128x64x16_o0_0_10_S128x64x1 q k (ix3 p r f)) + layer ![0, 0, 11] slices_S128x64x16_o0_0_11_S128x64x1 q k (ix3 p r f)) + layer ![0, 0, 12] slices_S128x64x16_o0_0_12_S128x64x1 q k (ix3 p r f)) + layer ![0, 0, 13] slices_S128x64x16_o0_0_13_S128x64x1 q k (ix3 p r f)) + layer ![0, 0, 14] slices_S128x64x16_o0_0_14_S128x64x1 q k (ix3 p r f)) + layer ![0, 0, 15] slices_S128x64x16_o0_0_15_S128x64x1 q k (ix3 p r f))
      = ∑ d : Fin 16, absE (q (ix3 p f d) - k (ix3 r f d)) := by
  rw [layer_apply 0 (by omega), layer_apply 1 (by omega), layer_apply 2 (by omega), layer_apply 3 (by omega), layer_apply 4 (by omega), layer_apply 5 (by omega), layer_apply 6 (by omega), layer_apply 7 (by omega), layer_apply 8 (by omega), layer_apply 9 (by omega), layer_apply 10 (by omega), layer_apply 11 (by omega), layer_apply 12 (by omega), layer_apply 13 (by omega), layer_apply 14 (by omega), layer_apply 15 (by omega), Ideal.ofBits_zero_f32]
  exact Cert.SumLaw.leftNested16 fun d => absE (q (ix3 p f d) - k (ix3 r f d))

/-- The new accumulator at (p, f): the old one plus, over the 128 key rows r, exp of minus the L1 distance between
    query row (p, f) and key row (r, f). -/
theorem stepTerm_apply (q k : Vec Ideal S128x64x16 .f32) (acc : Vec Ideal S128x64 .f32) (p : Fin 128) (f : Fin 64) :
    Hand.stepTerm q k acc (ix2 p f)
      = acc (ix2 p f) + ∑ r : Fin 128, Ideal.exp (0 - ∑ d : Fin 16, absE (q (ix3 p f d) - k (ix3 r f d))) := by
  have hq : k1_pay4 q = q := shapeCast_self _ _
  have hk : k1_pay5 k = k := shapeCast_self _ _
  unfold Hand.stepTerm k1_pay1 k1_pay11 k1_pay9 k1_pay6 k1_pay7 k1_pay8 k1_pay10 k1_pay12 k1_pay13
  rw [hq, hk, shapeCast_self]
  refine congrArg (acc (ix2 p f) + ·) ?_
  refine (multiReduction_add_middle_apply _ _ _ _ _ p f).trans ?_
  refine Finset.sum_congr rfl fun r _ => ?_
  refine Eq.trans ?_ ((congrArg (fun v => Ideal.exp (Ideal.ofBits .f32 0x00000000#32 - v)) (planes_sum q k p r f)).trans
    (by rw [Ideal.ofBits_zero_f32]))
  rfl

end Cert.KernelIdeal.HandValue

end
-- ==== Proof.Final1.lean ====
/- The value of the second TensorCore call at the extended reals: after its sixteen grid points the output array
   holds the pairwise stage of the array the call was entered with. The grid is 4 query tiles by 4 key tiles of 128
   rows each, the key tile moving fastest. One point adds, to an accumulator, the contribution of its key tile to
   the rows of its query tile; the accumulator restarts at key tile 0 and at key tile 3 the accumulator minus one is
   written to the output block of the query tile. So the written block holds the four tiles' contributions, which
   together are the sum over all 512 rows, minus one: the specification at the query tile's rows. The four written
   blocks cover the output array. -/
import proofs.«145708_j1580547970506_1_alg».proof.Proof.KI.Region1
import proofs.«145708_j1580547970506_1_alg».proof.Proof.Pay1
import proofs.«145708_j1580547970506_1_alg».proof.Proof.Spec
import proofs.«145708_j1580547970506_1_alg».proof.Proof.SumLaw
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand Cert.Spec Cert.SumLaw
open Idealize.ShloMosaic Idealize.ShloMosaic.TcCoe Idealize.SL.Sem Idealize.ShloMosaic.ValueIdx
open Idealize.ShloMosaic.Pipeline (Dat)

/-! ## Rows of a tile, and one tile's contribution -/

/-- Row x of tile a (tiles counted modulo 4, so that the row is below 512 whatever a is). -/
def row (a : ℕ) (x : Fin 128) : Fin 512 := ⟨a % 4 * 128 + x.val, by omega⟩

theorem row_val (a : ℕ) (x : Fin 128) : (row a x).val = a % 4 * 128 + x.val := rfl

/-- For a genuine tile number the row is the tile's index of the sum law. -/
theorem row_eq_tileIdx (t : Fin 4) (r : Fin 128) : row t.val r = tileIdx t r :=
  Fin.ext (by show t.val % 4 * 128 + r.val = 128 * t.val + r.val; omega)

/-- The contribution of key tile b to the pairwise sum of query row p of tile a, at feature f. -/
def T (m : FVec Ideal S512x64x16 .f32) (a b : ℕ) (p : Fin 128) (f : Fin 64) : EReal :=
  ∑ r : Fin 128, term m (row a p) (row b r) f

/-- ONE GRID POINT. If q is tile a's rows of m and k is tile b's rows of m, the body turns the accumulator acc into
    acc plus tile b's contribution to the rows of tile a. -/
theorem step_eq (m : FVec Ideal S512x64x16 .f32) (q k : Vec Ideal S128x64x16 .f32) (acc : Vec Ideal S128x64 .f32) (a b : ℕ)
    (hq : ∀ (p : Fin 128) (f : Fin 64) (d : Fin 16), q (ix3 p f d) = m (ix3 (row a p) f d))
    (hk : ∀ (r : Fin 128) (f : Fin 64) (d : Fin 16), k (ix3 r f d) = m (ix3 (row b r) f d))
    (p : Fin 128) (f : Fin 64) :
    stepTerm q k acc (ix2 p f) = acc (ix2 p f) + T m a b p f := by
  refine (stepTerm_apply q k acc p f).trans ?_
  refine congrArg (acc (ix2 p f) + ·) ?_
  unfold T term
  refine Finset.sum_congr rfl fun r _ => ?_
  refine congrArg (fun v => Ideal.exp (0 - v)) ?_
  refine Finset.sum_congr rfl fun d _ => ?_
  rw [hq p f d, hk r f d]

/-- THE LAST KEY TILE. If the accumulator holds the four tiles' contributions to the rows of tile a, added up, then
    the block the body writes (the accumulator minus one) is the specification at the rows of tile a: the four tile
    sums are the sum over all 512 rows. -/
theorem finish_eq_PW (m : FVec Ideal S512x64x16 .f32) (acc : Vec Ideal S128x64 .f32) (a : ℕ) (ha : a < 4)
    (hacc : ∀ (p : Fin 128) (f : Fin 64), acc (ix2 p f) = ∑ jt ∈ Finset.range 4, T m a jt p f)
    (j : S128x64.Idx) (i : S512x64.Idx) (hi0 : (i 0).val = a * 128 + (j 0).val) (hi1 : (i 1).val = (j 1).val) :
    finish acc j = PW m i := by
  obtain ⟨p, f, rfl⟩ : ∃ (p : Fin 128) (f : Fin 64), j = ix2 p f := ⟨j 0, j 1, eq_ix2 j⟩
  obtain ⟨I, f', rfl⟩ : ∃ (I : Fin 512) (f' : Fin 64), i = ix2 I f' := ⟨i 0, i 1, eq_ix2 i⟩
  have eI : row a p = I := Fin.ext (by
    have e : I.val = a * 128 + p.val := hi0
    show a % 4 * 128 + p.val = I.val
    omega)
  have ef : f = f' := Fin.ext hi1.symm
  subst ef
  rw [finish_apply, hacc p f, PW_apply]
  refine congrArg (· - one32) ?_
  rw [sum_tiles, ← Fin.sum_univ_eq_sum_range (fun jt => T m a jt p f) 4]
  refine Finset.sum_congr rfl fun tt _ => ?_
  unfold T
  refine Finset.sum_congr rfl fun r _ => ?_
  rw [eI, row_eq_tileIdx]
  rfl

/-! ## The windows' block indices over the grid -/

/-- Decided over the sixteen grid points: at position t the query window and the output window are at block row
    t / 4, the key window at block row t % 4, every other block coordinate is 0. -/
theorem idx_facts1 : ∀ t : Fin cfg1.N,
    win1_0.index t (0 : Fin 3) = t.val / 4 ∧ win1_0.index t (1 : Fin 3) = 0 ∧ win1_0.index t (2 : Fin 3) = 0
    ∧ win1_1.index t (0 : Fin 3) = t.val % 4 ∧ win1_1.index t (1 : Fin 3) = 0 ∧ win1_1.index t (2 : Fin 3) = 0
    ∧ win1_2.index t (0 : Fin 2) = t.val / 4 ∧ win1_2.index t (1 : Fin 2) = 0 ∧ t.val < 16 :=
  (by decide +kernel : ∀ t : Fin grid1.N, _)

-- the buffer contents of the TensorCore at the moment the call starts
variable (V : (c : Dev nD) → (b : Ref sig .tc) → Buf (Elt Ideal) ((c : Thread nD τ).loc b))

/-- The query window's block at position t is tile t / 4 of the array. -/
theorem read_q (c : Dev nD) (t : Fin cfg1.N) (p : Fin 128) (f : Fin 64) (d : Fin 16) :
    iblk1 (F := Ideal) V c 0 t (ix3 p f d) = V c main_v2 (ix3 (row (t.val / 4) p) f d) := by
  obtain ⟨e0, e1, e2, e3, e4, e5, e6, e7, e8⟩ := idx_facts1 t
  show V c main_v2 (((cfg1.win 0).blk t).view.emb (ix3 p f d)) = V c main_v2 (ix3 (row (t.val / 4) p) f d)
  refine congrArg (V c main_v2) (funext fun a => Fin.ext ?_)
  match a with
  | ⟨0, _⟩ => show win1_0.index t (0 : Fin 3) * 128 + 1 * p.val = t.val / 4 % 4 * 128 + p.val; omega
  | ⟨1, _⟩ => show win1_0.index t (1 : Fin 3) * 64 + 1 * f.val = f.val; omega
  | ⟨2, _⟩ => show win1_0.index t (2 : Fin 3) * 16 + 1 * d.val = d.val; omega

/-- The key window's block at position t is tile t % 4 of the same array. -/
theorem read_k (c : Dev nD) (t : Fin cfg1.N) (r : Fin 128) (f : Fin 64) (d : Fin 16) :
    iblk1 (F := Ideal) V c 1 t (ix3 r f d) = V c main_v2 (ix3 (row (t.val % 4) r) f d) := by
  obtain ⟨e0, e1, e2, e3, e4, e5, e6, e7, e8⟩ := idx_facts1 t
  show V c main_v2 (((cfg1.win 1).blk t).view.emb (ix3 r f d)) = V c main_v2 (ix3 (row (t.val % 4) r) f d)
  refine congrArg (V c main_v2) (funext fun a => Fin.ext ?_)
  match a with
  | ⟨0, _⟩ => show win1_1.index t (0 : Fin 3) * 128 + 1 * r.val = t.val % 4 % 4 * 128 + r.val; omega
  | ⟨1, _⟩ => show win1_1.index t (1 : Fin 3) * 64 + 1 * f.val = f.val; omega
  | ⟨2, _⟩ => show win1_1.index t (2 : Fin 3) * 16 + 1 * d.val = d.val; omega

/-! ## The accumulator along the grid -/

/-- THE ACCUMULATOR AFTER POSITION n holds, at (p, f), the contributions of key tiles 0 … n % 4 to row p of query
    tile n / 4: it restarts from zero at key tile 0 and gains one tile's contribution per point. -/
theorem acc_inv (c : Dev nD) : ∀ (n : ℕ) (hn : n < cfg1.N) (p : Fin 128) (f : Fin 64),
    accAt (F := Ideal) V c n hn (ix2 p f) = ∑ jt ∈ Finset.range (n % 4 + 1), T (V c main_v2) (n / 4) jt p f := by
  intro n
  induction n with
  | zero =>
    intro hn p f
    have e : accAt (F := Ideal) V c 0 hn = stepTerm (iblk1 V c 0 ⟨0, hn⟩) (iblk1 V c 1 ⟨0, hn⟩) (zeroAcc (F := Ideal)) :=
      accAt_first V c ⟨0, hn⟩ rfl
    rw [e]
    refine (step_eq (V c main_v2) (iblk1 V c 0 ⟨0, hn⟩) (iblk1 V c 1 ⟨0, hn⟩) (zeroAcc (F := Ideal)) (0 / 4) (0 % 4)
      (read_q V c ⟨0, hn⟩) (read_k V c ⟨0, hn⟩) p f).trans ?_
    rw [zeroAcc_apply, zero_add]
    exact (Finset.sum_range_one (fun jt => T (V c main_v2) (0 / 4) jt p f)).symm
  | succ k ih =>
    intro hn p f
    by_cases h0 : (k + 1) % 4 = 0
    · have e : accAt (F := Ideal) V c (k + 1) hn = stepTerm (iblk1 V c 0 ⟨k + 1, hn⟩) (iblk1 V c 1 ⟨k + 1, hn⟩) (zeroAcc (F := Ideal)) :=
        accAt_first V c ⟨k + 1, hn⟩ h0
      rw [e]
      refine (step_eq (V c main_v2) (iblk1 V c 0 ⟨k + 1, hn⟩) (iblk1 V c 1 ⟨k + 1, hn⟩) (zeroAcc (F := Ideal)) ((k + 1) / 4) ((k + 1) % 4)
        (read_q V c ⟨k + 1, hn⟩) (read_k V c ⟨k + 1, hn⟩) p f).trans ?_
      rw [zeroAcc_apply, zero_add, h0]
      exact (Finset.sum_range_one (fun jt => T (V c main_v2) ((k + 1) / 4) jt p f)).symm
    · have e : accAt (F := Ideal) V c (k + 1) hn = stepTerm (iblk1 V c 0 ⟨k + 1, hn⟩) (iblk1 V c 1 ⟨k + 1, hn⟩)
          (accAt V c k (Nat.lt_of_succ_lt hn)) :=
        accAt_next V c ⟨k + 1, hn⟩ h0
      rw [e]
      refine (step_eq (V c main_v2) (iblk1 V c 0 ⟨k + 1, hn⟩) (iblk1 V c 1 ⟨k + 1, hn⟩) (accAt V c k (Nat.lt_of_succ_lt hn))
        ((k + 1) / 4) ((k + 1) % 4) (read_q V c ⟨k + 1, hn⟩) (read_k V c ⟨k + 1, hn⟩) p f).trans ?_
      rw [ih (Nat.lt_of_succ_lt hn) p f]
      have e1 : (k + 1) / 4 = k / 4 := by omega
      have e2 : (k + 1) % 4 = k % 4 + 1 := by omega
      rw [e1, e2, Finset.sum_range_succ _ (k % 4 + 1)]

/-! ## From the blocks to the array -/

/-- WHAT A WRITING POINT WRITES BACK (the points of key tile 3) is its block of the specification of the array the
    call found. -/
theorem flushed_eq1 (c : Dev nD) (t : Fin cfg1.N) (hf : (cfg1.win 2).flush t = true) :
    (dat1 (F := Ideal) V c).flushed 2 t = ((cfg1.win 2).blk t).view.read (Elt Ideal) (PW (V c main_v2)) := by
  show (cfg1.win 2).cut (grid1.coords t) ((dat1 V c).after 2 t) = _
  rw [after1_2]
  have h3 : t.val % 4 = 3 := (flush1_2 t).mp hf
  obtain ⟨e0, e1, e2, e3, e4, e5, e6, e7, e8⟩ := idx_facts1 t
  funext j
  show finish (accAt (F := Ideal) V c t.val t.isLt) j = PW (V c main_v2) (((cfg1.win 2).blk t).view.emb j)
  refine finish_eq_PW (V c main_v2) (accAt (F := Ideal) V c t.val t.isLt) (t.val / 4) (by omega) ?_ j
    (((cfg1.win 2).blk t).view.emb j) ?_ ?_
  · intro p f
    have h := acc_inv V c t.val t.isLt p f
    rw [h3] at h
    exact h
  · show win1_2.index t (0 : Fin 2) * 128 + 1 * (j 0).val = t.val / 4 * 128 + (j 0).val; omega
  · show win1_2.index t (1 : Fin 2) * 64 + 1 * (j 1).val = (j 1).val; omega

/-- An index of the output array lies in point t's block iff, on each axis, its coordinate lies in the block's range. -/
theorem mem_blk1 (t : Fin cfg1.N) (i : S512x64.Idx) :
    i ∈ ((cfg1.win 2).blk t).view.set ↔ ∀ a : Fin 2, win1_2.index t a * S128x64.size a ≤ (i a).val ∧ (i a).val < win1_2.index t a * S128x64.size a + S128x64.size a := by
  show i ∈ ((View.whole main_v3).slice (win1_2.rect t)).set ↔ _
  rw [View.set_slice_whole, Rect.mem_set_unit]
  exact Iff.rfl

/-- Every index of the output array is in the block of a writing point: row r is in the block of the last key tile
    of query tile r / 128, position 4 · (r / 128) + 3, and each block spans all 64 columns. -/
theorem cover1 (i : S512x64.Idx) : ∃ t : Fin cfg1.N, (cfg1.win 2).flush t = true ∧ i ∈ ((cfg1.win 2).blk t).view.set := by
  have hi0 : (i 0).val < 512 := (i 0).isLt
  have hi1 : (i 1).val < 64 := (i 1).isLt
  obtain ⟨t, ht⟩ : ∃ t : Fin cfg1.N, t.val = 4 * ((i 0).val / 128) + 3 :=
    ⟨⟨4 * ((i 0).val / 128) + 3, by show 4 * ((i 0).val / 128) + 3 < grid1.N; rw [N_1]; omega⟩, rfl⟩
  obtain ⟨e0, e1, e2, e3, e4, e5, e6, e7, e8⟩ := idx_facts1 t
  refine ⟨t, (flush1_2 t).mpr (by omega), ?_⟩
  rw [mem_blk1]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 64 ≤ (i 1).val ∧ (i 1).val < win1_2.index t (1 : Fin 2) * 64 + 64; omega

/-- THE OUTPUT ARRAY AFTER THE CALL is the pairwise stage of the array the call found: every writing point writes a
    block of that one function and their blocks cover the array. -/
theorem final1 (c : Dev nD) : (dat1 (F := Ideal) V c).arrAt 2 cfg1.N = PW (V c main_v2) :=
  (dat1 (F := Ideal) V c).arrAt_eq_of_cover 2 (PW (V c main_v2)) (fun t hf => flushed_eq1 V c t hf) cover1

end Cert.KernelIdeal.HandValue

end
-- ==== Proof.Value.lean ====
/-
  The result buffer at the end of the run, at the ideal instance: reading the last valuation back through the
  concatenate, the pairwise region's output, the second reshape, the matmul region's output and the first reshape
  gives the specification `G` of the two argument arrays.
-/
import proofs.«145708_j1580547970506_1_alg».proof.Proof.KI.Ends
import proofs.«145708_j1580547970506_1_alg».proof.Proof.Final0
import proofs.«145708_j1580547970506_1_alg».proof.Proof.Final1
import proofs.«145708_j1580547970506_1_alg».proof.Proof.Spec
import Idealize.ShloMosaic.Lib.StableHlo.Run

set_option maxRecDepth 16384

noncomputable section

namespace Cert.KernelIdeal.HandValue

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg)

/-- The matmul region's second operand at entry: the first reshape of the second argument. -/
theorem W1_v0 (c : Dev nD) :
    (W1 m ρ c (Proc.devRef .tc main_v0) : FVec Ideal S512x1024 .f32)
      = shapeCast S512x1024 (m ((c : Thread nD τ).loc main_arg1)) Facts₀.shapeCasts_S512x64x16_S512x1024 := by
  show StableHlo.after hostOps0 (W0 m ρ c) (Proc.devRef .tc main_v0) = _; after_results; rfl

/-- The matmul region's first operand at entry: the first argument. -/
theorem W1_arg0 (c : Dev nD) : W1 m ρ c (Proc.devRef .tc main_arg0) = m ((c : Thread nD τ).loc main_arg0) := by
  show StableHlo.after hostOps0 (W0 m ρ c) (Proc.devRef .tc main_arg0) = _; after_results

/-- The pairwise region's input at entry: the second reshape of the matmul region's output. -/
theorem W3_v2 (c : Dev nD) :
    (W3 m ρ c (Proc.devRef .tc main_v2) : FVec Ideal S512x64x16 .f32)
      = shapeCast S512x64x16 (W2 m ρ c (Proc.devRef .tc main_v1) : FVec Ideal S512x1024 .f32) Facts₀.shapeCasts_S512x1024_S512x64x16 := by
  show StableHlo.after hostOps1 (W2 m ρ c) (Proc.devRef .tc main_v2) = _; after_results; rfl

/-- The first argument at the pairwise region's exit: still as launched. -/
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by
          show StableHlo.after hostOps1 (W2 m ρ c) (Proc.devRef .tc main_arg0) = _; after_results
    _ = W1 m ρ c (Proc.devRef .tc main_arg0) :=
          (W2_arr m ρ c 0).trans (((dat0 (E1 m ρ) c).arrAt_in 0 rfl _).trans (A_eq0 (E1 m ρ) c 0))
    _ = m ((c : Thread nD τ).loc main_arg0) := W1_arg0 m ρ c

/-- THE RESULT: the last valuation holds, at the result buffer, the specification of the two arguments. -/
theorem W5_result (c : Dev nD) :
    (W5 m ρ c (Proc.devRef .tc main_v4) : FVec Ideal S512x576 .f32)
      = Cert.Spec.G (m ((c : Thread nD τ).loc main_arg0)) (m ((c : Thread nD τ).loc main_arg1)) := by
  have h5 : (W5 m ρ c (Proc.devRef .tc main_v4) : FVec Ideal S512x576 .f32)
      = concatenate S512x576 1 [⟨S512x512, W4 m ρ c (Proc.devRef .tc main_arg0)⟩, ⟨S512x64, W4 m ρ c (Proc.devRef .tc main_v3)⟩]
          Facts₀.concatenates_S512x512_S512x64_S512x576_d1 := by
    show StableHlo.after hostOps2 (W4 m ρ c) (Proc.devRef .tc main_v4) = _; after_results
  have h4 : W4 m ρ c (Proc.devRef .tc main_v3) = Cert.Spec.PW (W3 m ρ c (Proc.devRef .tc main_v2)) :=
    (W4_out m ρ c).trans (final1 (E3 m ρ) c)
  have h2 : W2 m ρ c (Proc.devRef .tc main_v1)
      = Cert.Spec.MM (W1 m ρ c (Proc.devRef .tc main_arg0)) (W1 m ρ c (Proc.devRef .tc main_v0)) :=
    (W2_arr m ρ c 2).trans (final0 (E1 m ρ) c)
  rw [h5, h4, W3_v2, h2, W1_v0, W1_arg0, W4_arg0]
  rfl

end Cert.KernelIdeal.HandValue

end
-- ==== Proof.RefIsG.lean ====
/-
  The reference computes the specification.

  Its product stage is the matrix product entry by entry (the host's dot_general is the exact sum over the contracted
  index), and its pairwise stage — two broadcasts of the projected array m to [512, 512, 64, 16], their difference in
  absolute value, the sum over the 16 kernel dimensions from a zero constant, negation, exp, the sum over the first
  sample axis from a zero constant, minus a broadcast one — is, at (i, f),

      ( Σ_a exp( 0 − Σ_k | m(i, f, k) − m(a, f, k) | ) ) − 1 :

  entry (a, i, f, k) of the difference is m(i, f, k) − m(a, f, k), a zero initial value adds nothing, and −v = 0 − v on the
  extended reals. The two reshapes and the final join are the specification's own and are not opened.
-/
import proofs.«145708_j1580547970506_1_alg».proof.Proof.Spec
import proofs.«145708_j1580547970506_1_alg».proof.Proof.SpecMM
import proofs.«145708_j1580547970506_1_alg».proof.Proof.Gen.ReferenceIdeal.Read

noncomputable section

open scoped BigOperators

namespace Cert.ReferenceIdeal.RefValue

open Idealize.ShloMosaic Idealize.ShloMosaic.ValueIdx Cert.ReferenceIdeal Cert.ReferenceIdeal.Read Cert.Spec

/-! ## The product stage -/

/-- The reference's dot_general is the matrix product of x with the reshaped T. -/
theorem v1_eq_MM (x : (⟨S512x512, .f32⟩ : BufTy).Contents (Elt Ideal)) (T : (⟨S512x64x16, .f32⟩ : BufTy).Contents (Elt Ideal)) :
    val_main_v1 (F := Ideal) x T = MM x (val_main_v0 (F := Ideal) T) := by
  funext i
  rw [val_main_v1_apply, MM_apply]
  refine Finset.sum_congr rfl fun k _ => ?_
  have el : lidx_main_v1 i k = ix2 (⟨(i 0).val, idx2_lt0 i⟩ : Fin 512) k :=
    funext fun a => Fin.ext (by match a with | ⟨0, _⟩ => rfl | ⟨1, _⟩ => rfl)
  have er : ridx_main_v1 i k = ix2 k (⟨(i 1).val, idx2_lt1 i⟩ : Fin 1024) :=
    funext fun a => Fin.ext (by match a with | ⟨0, _⟩ => rfl | ⟨1, _⟩ => rfl)
  rw [el, er]

/-! ## The pairwise stage -/

/-- Entry (a, i, f, k) of the reference's absolute difference is |m(i, f, k) − m(a, f, k)|. -/
theorem v8_apply (x : (⟨S512x512, .f32⟩ : BufTy).Contents (Elt Ideal)) (T : (⟨S512x64x16, .f32⟩ : BufTy).Contents (Elt Ideal))
    (i a : Fin 512) (f : Fin 64) (k : Fin 16) :
    val_main_v8 (F := Ideal) x T (idx_main_v9 (idx_main_v12 (ix2 i f) a) k)
      = absE (val_main_v2 (F := Ideal) x T (ix3 i f k) - val_main_v2 (F := Ideal) x T (ix3 a f k)) := by
  have e5 : idx_main_v3 (idx_main_v5 (idx_main_v9 (idx_main_v12 (ix2 i f) a) k)) = ix3 i f k :=
    funext fun c => Fin.ext (by match c with | ⟨0, _⟩ => rfl | ⟨1, _⟩ => rfl | ⟨2, _⟩ => rfl)
  have e6 : idx_main_v4 (idx_main_v6 (idx_main_v9 (idx_main_v12 (ix2 i f) a) k)) = ix3 a f k :=
    funext fun c => Fin.ext (by match c with | ⟨0, _⟩ => rfl | ⟨1, _⟩ => rfl | ⟨2, _⟩ => rfl)
  rw [val_main_v8_apply, val_main_v7_apply, val_main_v5_apply, val_main_v6_apply, val_main_v3_apply, val_main_v4_apply,
    e5, e6]
  rfl

/-- The reference's pairwise stage is the specification's, of the projected array. -/
theorem v14_eq_PW (x : (⟨S512x512, .f32⟩ : BufTy).Contents (Elt Ideal)) (T : (⟨S512x64x16, .f32⟩ : BufTy).Contents (Elt Ideal)) :
    val_main_v14 (F := Ideal) x T = PW (val_main_v2 (F := Ideal) x T) := by
  funext j
  obtain ⟨i, f, rfl⟩ : ∃ (i : Fin 512) (f : Fin 64), j = ix2 i f := ⟨j 0, j 1, eq_ix2 j⟩
  rw [PW_apply, val_main_v14_apply, val_main_v12_apply, val_main_v13_apply, val_main_cst_1_apply, val_main_cst_0_apply]
  simp only [Ideal.subf_def, Ideal.ofBits_def, Ideal.ofBits_zero_f32, zero_add]
  refine congrArg (· - one32) (Finset.sum_congr rfl fun a _ => ?_)
  rw [val_main_v11_apply, val_main_v10_apply, val_main_v9_apply, val_main_cst_apply]
  simp only [Ideal.hostUnary_exp_def, Ideal.hostNegf_def, Ideal.negf_def, Ideal.ofBits_def, Ideal.ofBits_zero_f32, zero_add]
  rw [← zero_sub]
  refine congrArg (fun v => Ideal.exp (0 - v)) (Finset.sum_congr rfl fun k _ => ?_)
  exact v8_apply x T i a f k

/-! ## The whole result -/

section Whole
variable [Cert.KernelIdeal.Facts]

/-- The reference's result is the specification G of its two arguments. -/
theorem ref_is_G (x : (⟨S512x512, .f32⟩ : BufTy).Contents (Elt Ideal)) (T : (⟨S512x64x16, .f32⟩ : BufTy).Contents (Elt Ideal)) :
    val_main_v15 (F := Ideal) x T = G x T := by
  unfold val_main_v15
  rw [v14_eq_PW]
  unfold val_main_v2
  rw [v1_eq_MM]
  rfl

end Whole

end Cert.ReferenceIdeal.RefValue

end
-- ==== Proof.lean ====
/-
  The certificate's claims.

  The kernel computes, from x : [512, 512] and T : [512, 64, 16], the projected features m = reshape (x · reshape T)
  with a blocked matrix product, and from them o(i, f) = (Σ_a exp(−Σ_k |m(i,f,k) − m(a,f,k)|)) − 1 by accumulating
  key tile after key tile; the reference computes the same with one matrix product and whole-array reductions. On
  the extended reals a sum may be taken tile by tile and in any order, so both results are the one function `G` of
  the arguments. The frames: every execution of either program terminates without a fault and leaves the argument
  arrays as launched — for the kernel by the run of its two pipelined regions, for the reference by its run as a list
  of host operations.
-/
import proofs.«145708_j1580547970506_1_alg».proof.Defs
import proofs.«145708_j1580547970506_1_alg».proof.Proof.Gen.Kernel
import proofs.«145708_j1580547970506_1_alg».proof.Proof.Gen.KernelIdeal
import proofs.«145708_j1580547970506_1_alg».proof.Proof.Gen.ReferenceIdeal
import proofs.«145708_j1580547970506_1_alg».proof.Proof.Gen.ReferenceIdeal.Read
import proofs.«145708_j1580547970506_1_alg».proof.Proof.Gen.Pre_finite_inputs
import proofs.«145708_j1580547970506_1_alg».proof.Proof.K.Ends
import proofs.«145708_j1580547970506_1_alg».proof.Proof.KI.Ends
import proofs.«145708_j1580547970506_1_alg».proof.Proof.Value
import proofs.«145708_j1580547970506_1_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- The idealized kernel runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The idealized reference runs and leaves its arguments unchanged: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance both programs end with the specification `G` of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c =>
      ⟨(h c _ (Cert.KernelIdeal.Hand.mem_uc Cert.KernelIdeal.main_v4 (by decide))).trans (Cert.KernelIdeal.HandValue.W5_result m ρ c),
        (h c _ (Cert.KernelIdeal.Hand.mem_uc Cert.KernelIdeal.main_arg0 (by decide))).trans (Cert.KernelIdeal.Hand.W5_main_arg0 m ρ c),
        (h c _ (Cert.KernelIdeal.Hand.mem_uc Cert.KernelIdeal.main_arg1 (by decide))).trans (Cert.KernelIdeal.Hand.W5_main_arg1 m ρ c)⟩)
      (Cert.KernelIdeal.Hand.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.ReferenceIdeal.Read.val_main_v15_eq _ _).trans (Cert.ReferenceIdeal.RefValue.ref_is_G _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
